-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x96x96x96 : Shape := ⟨5, ![2, 32, 96, 96, 96]⟩
abbrev S1024x1024 : Shape := ⟨2, ![1024, 1024]⟩
abbrev S1024 : Shape := ⟨1, ![1024]⟩
abbrev S_ : Shape := ⟨0, ![]⟩

class Facts : Prop where
  bcast_S_S2x32x96x96x96 : S_.BroadcastsInDim S2x32x96x96x96 (![] : Fin 0 → Fin S2x32x96x96x96.rank)
  reducesTo_S2x32x96x96x96_S_d0_1_2_3_4 : S2x32x96x96x96.ReducesTo [0, 1, 2, 3, 4] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x32x96x96x96 .f32) (main_arg1 : FVec F S1024x1024 .f32) (main_arg2 : FVec F S1024 .f32) : IVec S_ 1 :=
  let main_v0 : FVec F S2x32x96x96x96 .f32 := Host.absf main_arg0
  let main_cst : FVec F S_ .f32 := constant S_ .f32 0x7F800000#32
  let main_v1 : FVec F S2x32x96x96x96 .f32 := broadcastInDim S2x32x96x96x96 ![] bcast_S_S2x32x96x96x96 main_cst
  let main_v2 : IVec S2x32x96x96x96 1 := cmpf .olt main_v0 main_v1
  let main_c : IVec S_ 1 := constantI S_ 1 1#1
  let main_v3 : IVec S_ 1 := (fun x v => Host.reduce IntOp.andi x v reducesTo_S2x32x96x96x96_S_d0_1_2_3_4 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S2x32x96x96x96 : Shape := ⟨5, ![2, 32, 96, 96, 96]⟩
abbrev S1024x1024 : Shape := ⟨2, ![1024, 1024]⟩
abbrev S1024 : Shape := ⟨1, ![1024]⟩
abbrev S2x32x64x13824 : Shape := ⟨4, ![2, 32, 64, 13824]⟩
abbrev S1024x1 : Shape := ⟨2, ![1024, 1]⟩
abbrev S1x32x64x384 : Shape := ⟨4, ![1, 32, 64, 384]⟩
abbrev S32x64x384 : Shape := ⟨3, ![32, 64, 384]⟩
abbrev S32x32x384 : Shape := ⟨3, ![32, 32, 384]⟩
abbrev S1024x384 : Shape := ⟨2, ![1024, 384]⟩

abbrev nBuf : Space → Nat
  | .hbm => 8
  | .vmem => 6
  | .smem => 0
  | _ => 0

abbrev bufTy : (tb : Table) → Fin (tcTables nBuf tb) → BufTy
  | .hbm, ⟨0, _⟩ => ⟨S2x32x96x96x96, .f32⟩
  | .hbm, ⟨1, _⟩ => ⟨S1024x1024, .f32⟩
  | .hbm, ⟨2, _⟩ => ⟨S1024, .f32⟩
  | .hbm, ⟨3, _⟩ => ⟨S2x32x64x13824, .f32⟩
  | .hbm, ⟨4, _⟩ => ⟨S1024x1024, .bf16⟩
  | .hbm, ⟨5, _⟩ => ⟨S1024x1, .f32⟩
  | .hbm, ⟨6, _⟩ => ⟨S2x32x64x13824, .f32⟩
  | .hbm, ⟨7, _⟩ => ⟨S2x32x96x96x96, .f32⟩
  | .local _ .vmem, ⟨0, _⟩ => ⟨S1x32x64x384, .f32⟩
  | .local _ .vmem, ⟨1, _⟩ => ⟨S1x32x64x384, .f32⟩
  | .local _ .vmem, ⟨2, _⟩ => ⟨S1024x1024, .bf16⟩
  | .local _ .vmem, ⟨3, _⟩ => ⟨S1024x1, .f32⟩
  | .local _ .vmem, ⟨4, _⟩ => ⟨S1x32x64x384, .f32⟩
  | .local _ .vmem, ⟨5, _⟩ => ⟨S1x32x64x384, .f32⟩
  | _, _ => ⟨S2x32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 36], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x32x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x64x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x32x96x96x96_S2x32x64x13824 : S2x32x96x96x96.ShapeCasts S2x32x64x13824
  bitsLt_bf16_f32 : FTy.bits .bf16 < FTy.bits .f32
  shapeCasts_S1024_S1024x1 : S1024.ShapeCasts S1024x1
  inb_S1x32x64x384_S1x32x64x384_0_0_0_0 : ∀ a, (![0, 0, 0, 0] : Fin 4 → Nat) a + S1x32x64x384.size a ≤ S1x32x64x384.size a
  h_S1x32x64x384 : 0 < S1x32x64x384.numel
  shapeCasts_S1x32x64x384_S32x64x384 : S1x32x64x384.ShapeCasts S32x64x384
  rotates_S32x64x384_d1 : S32x64x384.Rotates 1 none
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S32x64x384_o0_0_0_S32x32x384 : S32x64x384.Slices ![0, 0, 0] S32x32x384
  transposes_S32x32x384_p1_0_2_S32x32x384 : S32x32x384.Transposes [1, 0, 2] S32x32x384
  shapeCasts_S32x32x384_S1024x384 : S32x32x384.ShapeCasts S1024x384
  broadcasts_S1024x1_S1024x384 : S1024x1.Broadcasts S1024x384
  shapeCasts_S1024x384_S32x32x384 : S1024x384.ShapeCasts S32x32x384
  slices_S32x64x384_o0_32_0_S32x32x384 : S32x64x384.Slices ![0, 32, 0] S32x32x384
  concatenates_S32x32x384_S32x32x384_S32x64x384_d1 : Shape.Concatenates [S32x32x384, S32x32x384] S32x64x384 1
  shapeCasts_S32x64x384_S1x32x64x384 : S32x64x384.ShapeCasts S1x32x64x384
  shapeCasts_S2x32x64x13824_S2x32x96x96x96 : S2x32x64x13824.ShapeCasts S2x32x96x96x96
  dot_S1024x1024_S1024x384_S1024x384_1_0_0_1_n_n_wf : DotDims.WF S1024x1024 S1024x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x384.size a ≤ S2x32x64x13824.size a
  hwx0_0 : ∀ i : grid0.Coords, EltTy.bits .f32 = 32 ∨ (Rect.block (s := S2x32x64x13824) S1x32x64x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x64x384.size a ≤ S2x32x64x13824.size a
  hwx0_3 : ∀ i : grid0.Coords, EltTy.bits .f32 = 32 ∨ (Rect.block (s := S2x32x64x13824) S1x32x64x384.size (cc0_transform_3 i) (hinb0_3 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf

abbrev win0_0 : Pipeline.Window sig grid0 :=
  Pipeline.Window.ofSpec (Memref.whole main_v0) S1x32x64x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32x64x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32x96x96x96 : Shape := ⟨5, ![2, 32, 96, 96, 96]⟩
abbrev S1024x1024 : Shape := ⟨2, ![1024, 1024]⟩
abbrev S1024 : Shape := ⟨1, ![1024]⟩
abbrev S2x32x64x24x24x24 : Shape := ⟨6, ![2, 32, 64, 24, 24, 24]⟩
abbrev S2x24x24x24x64x32 : Shape := ⟨6, ![2, 24, 24, 24, 64, 32]⟩
abbrev S2x24x24x24x16x32 : Shape := ⟨6, ![2, 24, 24, 24, 16, 32]⟩
abbrev S2x24x24x24x48x32 : Shape := ⟨6, ![2, 24, 24, 24, 48, 32]⟩
abbrev S2x24x24x24x2x1024 : Shape := ⟨6, ![2, 24, 24, 24, 2, 1024]⟩
abbrev S1x1x1x1x1x1024 : Shape := ⟨6, ![1, 1, 1, 1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x32x96x96x96, .f32⟩
  | .hbm, ⟨1, _⟩ => ⟨S1024x1024, .f32⟩
  | .hbm, ⟨2, _⟩ => ⟨S1024, .f32⟩
  | .hbm, ⟨3, _⟩ => ⟨S2x32x64x24x24x24, .f32⟩
  | .hbm, ⟨4, _⟩ => ⟨S2x24x24x24x64x32, .f32⟩
  | .hbm, ⟨5, _⟩ => ⟨S2x24x24x24x16x32, .f32⟩
  | .hbm, ⟨6, _⟩ => ⟨S2x24x24x24x48x32, .f32⟩
  | .hbm, ⟨7, _⟩ => ⟨S2x24x24x24x64x32, .f32⟩
  | .hbm, ⟨8, _⟩ => ⟨S2x24x24x24x2x1024, .f32⟩
  | .hbm, ⟨9, _⟩ => ⟨S2x24x24x24x2x1024, .f32⟩
  | .hbm, ⟨10, _⟩ => ⟨S1x1x1x1x1x1024, .f32⟩
  | .hbm, ⟨11, _⟩ => ⟨S2x24x24x24x2x1024, .f32⟩
  | .hbm, ⟨12, _⟩ => ⟨S2x24x24x24x2x1024, .f32⟩
  | .hbm, ⟨13, _⟩ => ⟨S2x24x24x24x64x32, .f32⟩
  | .hbm, ⟨14, _⟩ => ⟨S2x24x24x24x48x32, .f32⟩
  | .hbm, ⟨15, _⟩ => ⟨S2x24x24x24x16x32, .f32⟩
  | .hbm, ⟨16, _⟩ => ⟨S2x24x24x24x64x32, .f32⟩
  | .hbm, ⟨17, _⟩ => ⟨S2x32x64x24x24x24, .f32⟩
  | .hbm, ⟨18, _⟩ => ⟨S2x32x96x96x96, .f32⟩
  | _, _ => ⟨S2x32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call1_v0 : Ref sig .tc := ⟨.hbm, 14, rfl⟩
abbrev main_call1_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  shapeCasts_S2x32x96x96x96_S2x32x64x24x24x24 : S2x32x96x96x96.ShapeCasts S2x32x64x24x24x24
  transposes_S2x32x64x24x24x24_S2x24x24x24x64x32_0_3_4_5_2_1 : S2x32x64x24x24x24.Transposes [0, 3, 4, 5, 2, 1] S2x24x24x24x64x32
  slices_S2x24x24x24x64x32_S2x24x24x24x16x32_0_0_0_0_48_0 : S2x24x24x24x64x32.Slices ![0, 0, 0, 0, 48, 0] S2x24x24x24x16x32
  slices_S2x24x24x24x64x32_S2x24x24x24x48x32_0_0_0_0_0_0 : S2x24x24x24x64x32.Slices ![0, 0, 0, 0, 0, 0] S2x24x24x24x48x32
  concatenates_S2x24x24x24x16x32_S2x24x24x24x48x32_S2x24x24x24x64x32_d4 : Shape.Concatenates [S2x24x24x24x16x32, S2x24x24x24x48x32] S2x24x24x24x64x32 4
  shapeCasts_S2x24x24x24x64x32_S2x24x24x24x2x1024 : S2x24x24x24x64x32.ShapeCasts S2x24x24x24x2x1024
  bcast_S1024_S1x1x1x1x1x1024_5 : S1024.BroadcastsInDim S1x1x1x1x1x1024 (![5] : Fin 1 → Fin S1x1x1x1x1x1024.rank)
  bcast_S1x1x1x1x1x1024_S2x24x24x24x2x1024_0_1_2_3_4_5 : S1x1x1x1x1x1024.BroadcastsInDim S2x24x24x24x2x1024 (![0, 1, 2, 3, 4, 5] : Fin 6 → Fin S2x24x24x24x2x1024.rank)
  shapeCasts_S2x24x24x24x2x1024_S2x24x24x24x64x32 : S2x24x24x24x2x1024.ShapeCasts S2x24x24x24x64x32
  slices_S2x24x24x24x64x32_S2x24x24x24x48x32_0_0_0_0_16_0 : S2x24x24x24x64x32.Slices ![0, 0, 0, 0, 16, 0] S2x24x24x24x48x32
  slices_S2x24x24x24x64x32_S2x24x24x24x16x32_0_0_0_0_0_0 : S2x24x24x24x64x32.Slices ![0, 0, 0, 0, 0, 0] S2x24x24x24x16x32
  concatenates_S2x24x24x24x48x32_S2x24x24x24x16x32_S2x24x24x24x64x32_d4 : Shape.Concatenates [S2x24x24x24x48x32, S2x24x24x24x16x32] S2x24x24x24x64x32 4
  transposes_S2x24x24x24x64x32_S2x32x64x24x24x24_0_5_4_1_2_3 : S2x24x24x24x64x32.Transposes [0, 5, 4, 1, 2, 3] S2x32x64x24x24x24
  shapeCasts_S2x32x64x24x24x24_S2x32x96x96x96 : S2x32x64x24x24x24.ShapeCasts S2x32x96x96x96
  dot_S2x24x24x24x2x1024_S1024x1024_S2x24x24x24x2x1024_5_1_01234_0_n_n_wf : DotDims.WF S2x24x24x24x2x1024 S1024x1024 S2x24x24x24x2x1024 [5] [1] [0, 1, 2, 3, 4] [0] [] []

variable [Facts₀]

def dot_S2x24x24x24x2x1024_S1024x1024_S2x24x24x24x2x1024_5_1_01234_0_n_n : DotDims S2x24x24x24x2x1024 S1024x1024 S2x24x24x24x2x1024 where
  lhsContracting := [5]
  rhsContracting := [1]
  lhsNonContracting := [0, 1, 2, 3, 4]
  rhsNonContracting := [0]
  lhsBatch := []
  rhsBatch := []
  wf := dot_S2x24x24x24x2x1024_S1024x1024_S2x24x24x24x2x1024_5_1_01234_0_n_n_wf

class Facts : Prop extends Facts₀ where

variable [Facts]
-- ==== Proof.WindowMix.lean ====
/-
  The windowed linear layer along the time axis, as one function of the argument arrays.

  The input is viewed as `x[b, c, t, p]`: batch `b < 2`, channel `c < 32`, time step `t < 64`, position
  `p < 13824`. Time is rolled forward by half a window (16 steps, around the 64), cut into two windows of 32 steps, and
  inside a window the 32 steps × 32 channels are flattened (step major) into a vector of length 1024 on which a dense
  layer `y = W v + bias` acts; the result is unflattened the same way and rolled back. Written out at one element:

    out[b, c, t, p] = (∑ k < 1024, W[row c t, k] · x[b, chan k, src t k, p]) + bias[row c t]

  where, with `u = (t + 16) mod 64` the rolled time of the output element, `row c t = (u mod 32) · 32 + c` is the layer's
  output feature, `chan k = k mod 32` the channel input feature `k` carries, and `src t k = ((u / 32) · 32 + k / 32 + 48) mod 64`
  the (un-rolled) time step it carries: step `k / 32` of `u`'s window, moved back by 16.

  Nothing here depends on finiteness: the formula only uses sums and products of extended reals.
-/
import Idealize.ShloMosaic.PureOps.Ideal
import Idealize.ShloMosaic.Lib.ValueIdx

noncomputable section

open scoped BigOperators

namespace Cert.WindowMix

open Idealize.ShloMosaic Idealize.ShloMosaic.ValueIdx

/-- The layer's output feature that element `(c, t)` of a result is: step `(t + 16) mod 32` of its window, channel `c`. -/
def row (c : Fin 32) (t : Fin 64) : Fin 1024 :=
  ⟨(t.val + 16) % 64 % 32 * 32 + c.val, by have := c.isLt; have := Nat.mod_lt ((t.val + 16) % 64) (by decide : 0 < 32); omega⟩

/-- The channel that input feature `k` carries. -/
def chan (k : Fin 1024) : Fin 32 := ⟨k.val % 32, Nat.mod_lt _ (by decide)⟩

/-- The time step that input feature `k` carries for an output element at time `t`: step `k / 32` of the window the
    rolled time `(t + 16) mod 64` lies in, rolled back by 16 (forward by 48, around the 64). -/
def src (t : Fin 64) (k : Fin 1024) : Fin 64 :=
  ⟨((t.val + 16) % 64 / 32 * 32 + k.val / 32 + 48) % 64, Nat.mod_lt _ (by decide)⟩

/-- The result at one element, over the arrays read by coordinates. -/
def mixAt (x : Fin 2 → Fin 32 → Fin 64 → Fin 13824 → EReal) (W : Fin 1024 → Fin 1024 → EReal) (bias : Fin 1024 → EReal)
    (b : Fin 2) (c : Fin 32) (t : Fin 64) (p : Fin 13824) : EReal :=
  (∑ k : Fin 1024, W (row c t) k * x b (chan k) (src t k) p) + bias (row c t)

/-- The four-axis view `[batch, channel, time, position]` both programs compute in. -/
abbrev Arr4 : Shape := ⟨4, ![2, 32, 64, 13824]⟩

/-- The whole result in the four-axis view, as a function of the input in that view and of the weight and bias by coordinates. -/
def mix (x : Arr4.Idx → EReal) (W : Fin 1024 → Fin 1024 → EReal) (bias : Fin 1024 → EReal) : Arr4.Idx → EReal :=
  fun j => mixAt (fun b c t p => x (ix4 b c t p)) W bias (j 0) (j 1) (j 2) (j 3)

theorem mix_apply (x : Arr4.Idx → EReal) (W : Fin 1024 → Fin 1024 → EReal) (bias : Fin 1024 → EReal)
    (b : Fin 2) (c : Fin 32) (t : Fin 64) (p : Fin 13824) :
    mix x W bias (ix4 b c t p) = (∑ k : Fin 1024, W (row c t) k * x (ix4 b (chan k) (src t k) p)) + bias (row c t) := rfl

end Cert.WindowMix

end
-- ==== Proof.LibRollReshape.lean ====
/-
  Rolls and reshapes read at an index given by coordinates, for any extents.

  * Two reshapes in a row are one reshape (`shapeCast_shapeCast_through`): a reshape only renames row-major positions.
  * A rotation of a rank-3 array along its middle axis (`dynamicRotate_ix3_axis1_apply`): the entry at `(a, j, e)` is the
    operand's at `(a, (j + n − s mod n) mod n, e)`: position `j` moved back by the amount, around the end.
  * A rank-3 array with its first two axes swapped (`transpose_ix3_102_apply`).
  * Two rank-3 arrays joined along the middle axis (`concatenate_ix3_axis1_left` / `_right`).
  * The first two axes of a rank-3 array merged, and a leading axis split in two (`shapeCast_abc_nc_apply`,
    `shapeCast_nc_abc_apply`): `(i, j, l)` and `(i · b + j, l)` are one row-major position.
  * The last axis of a rank-4 array split in three (`shapeCast_abcp_abcdef_apply`) and the last two axes of a rank-6 array
    regrouped (`shapeCast6_last2_apply`).
  * A roll along axis 4 of a rank-6 array spelt as two slices joined in the other order (`roll6_axis4_apply`): the tail
    of `m1` entries first, then the head of `m2`, reads at `t` the operand at `(t + m2) mod (m1 + m2)`.
-/
import Idealize.ShloMosaic.Lib.Pipeline.Value
import Idealize.ShloMosaic.Lib.ValueIdx
import Idealize.ShloMosaic.Lib.ValueIdxRank6
import Idealize.ShloMosaic.Lib.KernelVsHost

namespace Cert.Lib.RollReshape

open Idealize.ShloMosaic Idealize.ShloMosaic.ValueIdx

variable {α : Type}

/-- Two reshapes in a row are the one reshape to the last shape. -/
theorem shapeCast_shapeCast_through {s t u : Shape} (x : s.Idx → α) (h1 : s.ShapeCasts t) (h2 : t.ShapeCasts u)
    (h3 : s.ShapeCasts u) : shapeCast u (shapeCast t x h1) h2 = shapeCast u x h3 :=
  funext fun j => congrArg x (Shape.reshapeEquiv_reshapeEquiv h1 h2 j)

/-- A rank-3 array rotated along its middle axis by `sb` reads, at `(a, j, e)`, the operand at `(a, k, e)` with
    `k = (j + n1 − sb mod n1) mod n1`. -/
theorem dynamicRotate_ix3_axis1_apply {n0 n1 n2 : ℕ} (sb : BitVec 32) (x : (⟨3, ![n0, n1, n2]⟩ : Shape).Idx → α)
    (h : (⟨3, ![n0, n1, n2]⟩ : Shape).Rotates 1 none) (a : Fin n0) (j : Fin n1) (e : Fin n2) (k : Fin n1)
    (hk : k.val = (j.val + n1 - sb.toNat % n1) % n1) :
    dynamicRotate 1 sb none x h (ix3 a j e) = x (ix3 a k e) :=
  dynamicRotate_apply 1 sb x h (ix3 a j e) (ix3 a k e) (fun b => by
    match b with
    | ⟨0, _⟩ => rfl
    | ⟨1, _⟩ => show k.val = (j.val + n1 - sb.toNat % n1) % n1; exact hk
    | ⟨2, _⟩ => rfl)

/-- A rank-3 array with its first two axes swapped reads, at `(j, i, l)`, the operand at `(i, j, l)`. -/
theorem transpose_ix3_102_apply {a b c : ℕ} (x : (⟨3, ![a, b, c]⟩ : Shape).Idx → α)
    (h : (⟨3, ![a, b, c]⟩ : Shape).Transposes [1, 0, 2] ⟨3, ![b, a, c]⟩) (i : Fin a) (j : Fin b) (l : Fin c) :
    transpose ⟨3, ![b, a, c]⟩ [1, 0, 2] x h (ix3 j i l) = x (ix3 i j l) :=
  transpose_apply _ x h _ _ fun d => match d with | ⟨0, _⟩ => rfl | ⟨1, _⟩ => rfl | ⟨2, _⟩ => rfl

/-- Two rank-3 arrays joined along the middle axis read, below the first extent, the first. -/
theorem concatenate_ix3_axis1_left {n0 m1 m2 n2 N : ℕ} (x₁ : (⟨3, ![n0, m1, n2]⟩ : Shape).Idx → α)
    (x₂ : (⟨3, ![n0, m2, n2]⟩ : Shape).Idx → α)
    (h : Shape.Concatenates [⟨3, ![n0, m1, n2]⟩, ⟨3, ![n0, m2, n2]⟩] ⟨3, ![n0, N, n2]⟩ 1)
    (a : Fin n0) (j : Fin N) (e : Fin n2) (i : Fin m1) (hi : i.val = j.val) :
    concatenate ⟨3, ![n0, N, n2]⟩ 1 [⟨⟨3, ![n0, m1, n2]⟩, x₁⟩, ⟨⟨3, ![n0, m2, n2]⟩, x₂⟩] h (ix3 a j e) = x₁ (ix3 a i e) :=
  concatenate_pair_apply_left 1 x₁ x₂ h (ix3 a j e) rfl (ix3 a i e)
    (fun b => match b with | ⟨0, _⟩ => rfl | ⟨1, _⟩ => hi | ⟨2, _⟩ => rfl)

/-- … and from the first extent on, the second, the first extent less. -/
theorem concatenate_ix3_axis1_right {n0 m1 m2 n2 N : ℕ} (x₁ : (⟨3, ![n0, m1, n2]⟩ : Shape).Idx → α)
    (x₂ : (⟨3, ![n0, m2, n2]⟩ : Shape).Idx → α)
    (h : Shape.Concatenates [⟨3, ![n0, m1, n2]⟩, ⟨3, ![n0, m2, n2]⟩] ⟨3, ![n0, N, n2]⟩ 1)
    (a : Fin n0) (j : Fin N) (e : Fin n2) (i : Fin m2) (hi : i.val + m1 = j.val) :
    concatenate ⟨3, ![n0, N, n2]⟩ 1 [⟨⟨3, ![n0, m1, n2]⟩, x₁⟩, ⟨⟨3, ![n0, m2, n2]⟩, x₂⟩] h (ix3 a j e) = x₂ (ix3 a i e) :=
  concatenate_pair_apply_right 1 x₁ x₂ h (ix3 a j e) rfl rfl (ix3 a i e)
    (fun b hb => match b, hb with
      | ⟨0, _⟩, _ => rfl
      | ⟨1, _⟩, hb => absurd rfl hb
      | ⟨2, _⟩, _ => rfl) hi

/-- The first two axes of an `[a, b, c]` array merged into one of extent `n`: at `(k, l)` it reads the operand at
    `(i, j, l)` with `i · b + j = k`. -/
theorem shapeCast_abc_nc_apply {a b c n : ℕ} (x : (⟨3, ![a, b, c]⟩ : Shape).Idx → α)
    (h : (⟨3, ![a, b, c]⟩ : Shape).ShapeCasts ⟨2, ![n, c]⟩) (k : Fin n) (l : Fin c) (i : Fin a) (j : Fin b)
    (hk : i.val * b + j.val = k.val) : shapeCast ⟨2, ![n, c]⟩ x h (ix2 k l) = x (ix3 i j l) :=
  shapeCast_apply x h _ _ (by
    rw [Shape.rowMajor_val_three, Shape.rowMajor_val_two]
    show (i.val * b + j.val) * c + l.val = k.val * c + l.val
    rw [hk])

/-- The leading axis of an `[n, c]` array split into `[a, b]`: at `(i, j, l)` it reads the operand at `(k, l)` with
    `k = i · b + j`. -/
theorem shapeCast_nc_abc_apply {a b c n : ℕ} (y : (⟨2, ![n, c]⟩ : Shape).Idx → α)
    (h : (⟨2, ![n, c]⟩ : Shape).ShapeCasts ⟨3, ![a, b, c]⟩) (i : Fin a) (j : Fin b) (l : Fin c) (k : Fin n)
    (hk : k.val = i.val * b + j.val) : shapeCast ⟨3, ![a, b, c]⟩ y h (ix3 i j l) = y (ix2 k l) :=
  shapeCast_apply y h _ _ (by
    rw [Shape.rowMajor_val_three, Shape.rowMajor_val_two]
    show k.val * c + l.val = (i.val * b + j.val) * c + l.val
    rw [hk])

/-- The last axis of an `[n0, n1, n2, P]` array split into `[d, e, f]` (`P = d · e · f`): at `(a, b, c, u, v, w)` it
    reads the operand at `(a, b, c, p)` with `p = (u · e + v) · f + w`. -/
theorem shapeCast_abcp_abcdef_apply {n0 n1 n2 P d e f : ℕ} (x : (⟨4, ![n0, n1, n2, P]⟩ : Shape).Idx → α)
    (h : (⟨4, ![n0, n1, n2, P]⟩ : Shape).ShapeCasts ⟨6, ![n0, n1, n2, d, e, f]⟩) (hP : P = d * e * f)
    (a : Fin n0) (b : Fin n1) (c : Fin n2) (u : Fin d) (v : Fin e) (w : Fin f) (p : Fin P)
    (hp : p.val = (u.val * e + v.val) * f + w.val) :
    shapeCast ⟨6, ![n0, n1, n2, d, e, f]⟩ x h (ix6 a b c u v w) = x (ix4 a b c p) :=
  shapeCast_apply x h _ _ (by
    rw [Shape.rowMajor_val_six, Shape.rowMajor_val_four]
    show ((a.val * n1 + b.val) * n2 + c.val) * P + p.val
      = ((((a.val * n1 + b.val) * n2 + c.val) * d + u.val) * e + v.val) * f + w.val
    rw [hp, hP]
    ring)

/-- The last two axes `[T, C]` of a rank-6 array regrouped as `[G, K]` (`T · C = G · K`): at `(a, b, c, d, g, k)` it
    reads the operand at `(a, b, c, d, t, c')` with `t · C + c' = g · K + k`. -/
theorem shapeCast6_last2_apply {n0 n1 n2 n3 T C G K : ℕ} (x : (⟨6, ![n0, n1, n2, n3, T, C]⟩ : Shape).Idx → α)
    (h : (⟨6, ![n0, n1, n2, n3, T, C]⟩ : Shape).ShapeCasts ⟨6, ![n0, n1, n2, n3, G, K]⟩) (hTC : T * C = G * K)
    (a : Fin n0) (b : Fin n1) (c : Fin n2) (d : Fin n3) (g : Fin G) (k : Fin K) (t : Fin T) (c' : Fin C)
    (hk : t.val * C + c'.val = g.val * K + k.val) :
    shapeCast ⟨6, ![n0, n1, n2, n3, G, K]⟩ x h (ix6 a b c d g k) = x (ix6 a b c d t c') :=
  shapeCast_apply x h _ _ (by
    rw [Shape.rowMajor_val_six, Shape.rowMajor_val_six]
    show ((((a.val * n1 + b.val) * n2 + c.val) * n3 + d.val) * T + t.val) * C + c'.val
      = ((((a.val * n1 + b.val) * n2 + c.val) * n3 + d.val) * G + g.val) * K + k.val
    have e1 : ∀ X : ℕ, (X * T + t.val) * C + c'.val = X * (T * C) + (t.val * C + c'.val) := fun X => by ring
    have e2 : ∀ X : ℕ, (X * G + g.val) * K + k.val = X * (G * K) + (g.val * K + k.val) := fun X => by ring
    rw [e1, e2, hTC, hk])

/-- A roll along axis 4 of a rank-6 array, spelt as its last `m1` entries followed by its first `m2`: at position `t` it
    reads the operand at `(t + m2) mod N`. -/
theorem roll6_axis4_apply {n0 n1 n2 n3 N n5 m1 m2 : ℕ} (y : (⟨6, ![n0, n1, n2, n3, N, n5]⟩ : Shape).Idx → α)
    (hs1 : (⟨6, ![n0, n1, n2, n3, N, n5]⟩ : Shape).Slices ![0, 0, 0, 0, m2, 0] ⟨6, ![n0, n1, n2, n3, m1, n5]⟩)
    (hs2 : (⟨6, ![n0, n1, n2, n3, N, n5]⟩ : Shape).Slices ![0, 0, 0, 0, 0, 0] ⟨6, ![n0, n1, n2, n3, m2, n5]⟩)
    (hc : Shape.Concatenates [⟨6, ![n0, n1, n2, n3, m1, n5]⟩, ⟨6, ![n0, n1, n2, n3, m2, n5]⟩] ⟨6, ![n0, n1, n2, n3, N, n5]⟩ 4)
    (hN : m1 + m2 = N)
    (a : Fin n0) (b : Fin n1) (c : Fin n2) (d : Fin n3) (t : Fin N) (f : Fin n5) (t' : Fin N)
    (ht : t'.val = (t.val + m2) % N) :
    concatenate ⟨6, ![n0, n1, n2, n3, N, n5]⟩ 4
        [⟨⟨6, ![n0, n1, n2, n3, m1, n5]⟩, extractStridedSlice ⟨6, ![n0, n1, n2, n3, m1, n5]⟩ ![0, 0, 0, 0, m2, 0] y hs1⟩,
         ⟨⟨6, ![n0, n1, n2, n3, m2, n5]⟩, extractStridedSlice ⟨6, ![n0, n1, n2, n3, m2, n5]⟩ ![0, 0, 0, 0, 0, 0] y hs2⟩] hc
        (ix6 a b c d t f)
      = y (ix6 a b c d t' f) := by
  have htN : t.val < N := t.isLt
  by_cases hlt : t.val < m1
  · -- the first piece: the operand's tail, from position m2
    have ht' : t'.val = m2 + t.val := by rw [ht, Nat.mod_eq_of_lt (by omega)]; omega
    refine (concatenate_pair_apply_left 4 _ _ hc (ix6 a b c d t f) rfl (ix6 a b c d (⟨t.val, hlt⟩ : Fin m1) f)
      (fun ax => match ax with | ⟨0, _⟩ => rfl | ⟨1, _⟩ => rfl | ⟨2, _⟩ => rfl | ⟨3, _⟩ => rfl | ⟨4, _⟩ => rfl | ⟨5, _⟩ => rfl)).trans ?_
    exact extractStridedSlice_apply _ y hs1 _ _ (fun ax => by
      match ax with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact ht'
      | ⟨5, _⟩ => exact (Nat.zero_add _).symm)
  · -- the second piece: the operand's head
    have hge : m1 ≤ t.val := Nat.le_of_not_lt hlt
    have hlt2 : t.val - m1 < m2 := by omega
    have ht' : t'.val = 0 + (t.val - m1) := by
      rw [ht, Nat.mod_eq_sub_mod (by omega), Nat.mod_eq_of_lt (by omega)]; omega
    refine (concatenate_pair_apply_right 4 _ _ hc (ix6 a b c d t f) rfl rfl (ix6 a b c d (⟨t.val - m1, hlt2⟩ : Fin m2) f)
      (fun ax hax => match ax, hax with
        | ⟨0, _⟩, _ => rfl | ⟨1, _⟩, _ => rfl | ⟨2, _⟩, _ => rfl | ⟨3, _⟩, _ => rfl
        | ⟨4, _⟩, hax => absurd rfl hax
        | ⟨5, _⟩, _ => rfl)
      (by show t.val - m1 + m1 = t.val; omega)).trans ?_
    exact extractStridedSlice_apply _ y hs2 _ _ (fun ax => by
      match ax with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact ht'
      | ⟨5, _⟩ => exact (Nat.zero_add _).symm)

end Cert.Lib.RollReshape
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.LibKeepdimsColumn.lean ====
/-
  The keepdims COLUMN forms of two layout operations, read at an index given by coordinates: what a sum over the last
  axis with the reduced axis kept (a column of per-row values) needs when the column is built from a vector and then
  spread over the columns of a matrix.
    * `shapeCast_a_a1_apply`: an `[a]` vector cast to an `[a, 1]` column reads, at `(i, u)`, the vector at `i`.
    * `broadcastTo_a1_ab_apply`: an `[a, 1]` column broadcast to `[a, b]` reads, at `(i, c)`, the column at `(i, 0)`.
  Both are the library's general read-at-an-index lemmas with the coordinate arithmetic done once, for any extents.
-/
import Idealize.ShloMosaic.Lib.Pipeline.Value
import Idealize.ShloMosaic.Lib.ValueIdx

namespace Cert.Lib.KeepdimsColumn

open Idealize.ShloMosaic Idealize.ShloMosaic.ValueIdx

variable {α : Type}

/-- An `[a]` vector cast to an `[a, 1]` column reads, at `(i, u)`, the vector at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.Lib.KeepdimsColumn
-- ==== Proof.BodyAt.lean ====
/-
  What one grid point's body stores, read at one element.

  The body holds a block `x0[0, c, t, l]` (32 channels, 64 time steps, 384 positions), the weight `w[o, k]` and the bias
  column `bb[o, 0]`. It rolls the block's time axis forward by 16, and for each of the two windows of 32 steps it
  flattens the window (step major, channel minor) into a `[1024, 384]` matrix, applies the dense layer
  `w · _ + bb` and unflattens; the two results are joined along time and rolled back (forward by 48). Read at
  `(0, c, t, l)`, with `row`, `chan`, `src` as in the specification:

    stored[0, c, t, l] = (∑ k < 1024, w[row c t, k] · x0[0, chan k, src t k, l]) + bb[row c t, 0].

  The four stages are named (`rolled`, `flat`, `dense`, `unflat`) and read at an index one by one; that the printed
  payload is their composition holds by unfolding.
-/
import proofs.«179925_j56332791054554_2_alg».proof.Proof.Gen.KernelIdeal.Skeleton
import proofs.«179925_j56332791054554_2_alg».proof.Proof.WindowMix
import proofs.«179925_j56332791054554_2_alg».proof.Proof.LibRollReshape
import proofs.«179925_j56332791054554_2_alg».proof.Proof.LibPlainMatmul
import proofs.«179925_j56332791054554_2_alg».proof.Proof.LibKeepdimsColumn
import Idealize.ShloMosaic.Lib.ValueLayout

noncomputable section

open scoped BigOperators

namespace Cert.KernelIdeal.BodyAt

open Cert.KernelIdeal Cert.KernelIdeal.Gen Idealize.ShloMosaic Idealize.ShloMosaic.ValueIdx
open Cert.WindowMix Cert.Lib.RollReshape Cert.Lib.KeepdimsColumn

/-! ## The stages -/

/-- The block without its unit axis, time rolled forward by 16. -/
def rolled (x0 : FVec Ideal S1x32x64x384 .f32) : FVec Ideal S32x64x384 .f32 :=
  dynamicRotate 1 16#32 none (shapeCast S32x64x384 x0 shapeCasts_S1x32x64x384_S32x64x384) rotates_S32x64x384_d1

/-- The window of 32 steps from step `o`, flattened step major, channel minor. -/
def flat (o : ℕ) (v : FVec Ideal S32x64x384 .f32) (hs : S32x64x384.Slices ![0, o, 0] S32x32x384) : FVec Ideal S1024x384 .f32 :=
  shapeCast S1024x384 (transpose S32x32x384 [1, 0, 2] (extractStridedSlice S32x32x384 ![0, o, 0] v hs)
    transposes_S32x32x384_p1_0_2_S32x32x384) shapeCasts_S32x32x384_S1024x384

/-- The dense layer on a flattened window: the weight times the window, plus the bias column spread over the positions. -/
def dense (w : FVec Ideal S1024x1024 .bf16) (bb : FVec Ideal S1024x1 .f32) (xg : FVec Ideal S1024x384 .bf16) : FVec Ideal S1024x384 .f32 :=
  addf (matmul dot_S1024x1024_S1024x384_S1024x384_1_0_0_1_n_n none (shapeCast S1024x1024 w shapeCasts_S1024x1024_S1024x1024) xg
      (constant (F := Ideal) S1024x384 .f32 0x00000000#32))
    (broadcastTo S1024x384 (shapeCast S1024x1 bb shapeCasts_S1024x1_S1024x1) broadcasts_S1024x1_S1024x384)

/-- A layer output unflattened back to channel, step, position. -/
def unflat (y : FVec Ideal S1024x384 .f32) : FVec Ideal S32x32x384 .f32 :=
  transpose S32x32x384 [1, 0, 2] (shapeCast S32x32x384 y shapeCasts_S1024x384_S32x32x384) transposes_S32x32x384_p1_0_2_S32x32x384

/-- The printed payload is the stages composed. -/
theorem pay_eq (x0 : FVec Ideal S1x32x64x384 .f32) (w : FVec Ideal S1024x1024 .bf16) (bb : FVec Ideal S1024x1 .f32) :
    k0_pay1 (F := Ideal) x0 w bb
      = shapeCast S1x32x64x384 (dynamicRotate 1 48#32 none
          (concatenate S32x64x384 1
            [⟨S32x32x384, unflat (dense w bb (truncf .bf16 (flat 0 (rolled x0) slices_S32x64x384_o0_0_0_S32x32x384) bitsLt_bf16_f32))⟩,
             ⟨S32x32x384, unflat (dense w bb (truncf .bf16 (flat 32 (rolled x0) slices_S32x64x384_o0_32_0_S32x32x384) bitsLt_bf16_f32))⟩]
            concatenates_S32x32x384_S32x32x384_S32x64x384_d1) rotates_S32x64x384_d1) shapeCasts_S32x64x384_S1x32x64x384 := rfl

/-! ## Each stage at an index -/

/-- The rolled block at `(c, s, l)` is the block at time `(s + 48) mod 64`. -/
theorem rolled_apply (x0 : FVec Ideal S1x32x64x384 .f32) (c : Fin 32) (s : Fin 64) (l : Fin 384) (s' : Fin 64)
    (hs' : s'.val = (s.val + 48) % 64) : rolled x0 (ix3 c s l) = x0 (ix4 (0 : Fin 1) c s' l) := by
  unfold rolled
  refine (dynamicRotate_ix3_axis1_apply 16#32 _ rotates_S32x64x384_d1 c s l s' ?_).trans ?_
  · have h16 : (16#32 : BitVec 32).toNat = 16 := rfl
    rw [h16, hs']; omega
  · exact shapeCast_1abc_abc_apply x0 shapeCasts_S1x32x64x384_S32x64x384 c s' l

/-- A flattened window at `(k, l)`: channel `k mod 32`, step `o + k / 32`. -/
theorem flat_apply (o : ℕ) (v : FVec Ideal S32x64x384 .f32) (hs : S32x64x384.Slices ![0, o, 0] S32x32x384)
    (k : Fin 1024) (l : Fin 384) (s : Fin 64) (hs' : s.val = o + k.val / 32) :
    flat o v hs (ix2 k l) = v (ix3 (chan k) s l) := by
  unfold flat
  have hk32 : k.val / 32 < 32 := by have := k.isLt; omega
  refine (shapeCast_abc_nc_apply _ shapeCasts_S32x32x384_S1024x384 k l (⟨k.val / 32, hk32⟩ : Fin 32) (chan k) ?_).trans ?_
  · show k.val / 32 * 32 + k.val % 32 = k.val; omega
  refine (transpose_ix3_102_apply _ transposes_S32x32x384_p1_0_2_S32x32x384 (chan k) (⟨k.val / 32, hk32⟩ : Fin 32) l).trans ?_
  exact slice3_axis1_apply o v hs (chan k) (⟨k.val / 32, hk32⟩ : Fin 32) l s hs'

theorem dot_lhs0 (i : S1024x384.Idx) (q : dot_S1024x1024_S1024x384_S1024x384_1_0_0_1_n_n.contr.Idx) :
    (dot_S1024x1024_S1024x384_S1024x384_1_0_0_1_n_n.lhsIdx i q 0).val = (i 0).val := by
  unfold DotDims.lhsIdx
  rw [dif_neg (show ¬(0 : Fin S1024x1024.rank) ∈ dot_S1024x1024_S1024x384_S1024x384_1_0_0_1_n_n.lhsBatch by decide),
    dif_pos (show (0 : Fin S1024x1024.rank) ∈ dot_S1024x1024_S1024x384_S1024x384_1_0_0_1_n_n.lhsNonContracting by decide)]
  rfl

theorem dot_rhs1 (i : S1024x384.Idx) (q : dot_S1024x1024_S1024x384_S1024x384_1_0_0_1_n_n.contr.Idx) :
    (dot_S1024x1024_S1024x384_S1024x384_1_0_0_1_n_n.rhsIdx i q 1).val = (i 1).val := by
  unfold DotDims.rhsIdx
  rw [dif_neg (show ¬(1 : Fin S1024x384.rank) ∈ dot_S1024x1024_S1024x384_S1024x384_1_0_0_1_n_n.rhsBatch by decide),
    dif_pos (show (1 : Fin S1024x384.rank) ∈ dot_S1024x1024_S1024x384_S1024x384_1_0_0_1_n_n.rhsNonContracting by decide)]
  rfl

/-- The dense layer at `(o, l)`: row `o` of the weight against column `l` of the window, plus the bias of row `o`. -/
theorem dense_apply (w : FVec Ideal S1024x1024 .bf16) (bb : FVec Ideal S1024x1 .f32) (xg : FVec Ideal S1024x384 .bf16)
    (o : Fin 1024) (l : Fin 384) :
    dense w bb xg (ix2 o l) = (∑ k : Fin 1024, w (ix2 o k) * xg (ix2 k l)) + bb (ix2 o (0 : Fin 1)) := by
  unfold dense
  rw [shapeCast_self, shapeCast_self]
  show matmul dot_S1024x1024_S1024x384_S1024x384_1_0_0_1_n_n none w xg (constant (F := Ideal) S1024x384 .f32 0x00000000#32) (ix2 o l)
      + broadcastTo S1024x384 bb broadcasts_S1024x1_S1024x384 (ix2 o l) = _
  rw [PlainMatmul.matmul_zero_apply dot_S1024x1024_S1024x384_S1024x384_1_0_0_1_n_n none rfl rfl dot_lhs0
      (fun i q => dot_S1024x1024_S1024x384_S1024x384_1_0_0_1_n_n.lhsIdx_val_of_single rfl i q)
      (fun i q => dot_S1024x1024_S1024x384_S1024x384_1_0_0_1_n_n.rhsIdx_val_of_single rfl i q) dot_rhs1 w xg o l,
    broadcastTo_a1_ab_apply bb broadcasts_S1024x1_S1024x384 o l]

/-- An unflattened output at `(c, s, l)` is the layer's row `s · 32 + c`. -/
theorem unflat_apply (y : FVec Ideal S1024x384 .f32) (c : Fin 32) (s : Fin 32) (l : Fin 384) (o : Fin 1024)
    (ho : o.val = s.val * 32 + c.val) : unflat y (ix3 c s l) = y (ix2 o l) := by
  unfold unflat
  refine (transpose_ix3_102_apply _ transposes_S32x32x384_p1_0_2_S32x32x384 s c l).trans ?_
  exact shapeCast_nc_abc_apply y shapeCasts_S1024x384_S32x32x384 s c l o ho

/-! ## One window, and the whole payload -/

/-- The window from step `o` (`o = 0` or `32`), through the layer and back, at `(c, s, l)`. -/
theorem window_apply (o : ℕ) (hs : S32x64x384.Slices ![0, o, 0] S32x32x384) (ho : o + 32 ≤ 64)
    (x0 : FVec Ideal S1x32x64x384 .f32) (w : FVec Ideal S1024x1024 .bf16) (bb : FVec Ideal S1024x1 .f32)
    (c : Fin 32) (s : Fin 32) (l : Fin 384) (r : Fin 1024) (hr : r.val = s.val * 32 + c.val)
    (σ : Fin 1024 → Fin 64) (hσ : ∀ k : Fin 1024, (σ k).val = (o + k.val / 32 + 48) % 64) :
    unflat (dense w bb (truncf .bf16 (flat o (rolled x0) hs) bitsLt_bf16_f32)) (ix3 c s l)
      = (∑ k : Fin 1024, w (ix2 r k) * x0 (ix4 (0 : Fin 1) (chan k) (σ k) l)) + bb (ix2 r (0 : Fin 1)) := by
  rw [unflat_apply _ c s l r hr, dense_apply]
  refine congrArg (· + bb (ix2 r (0 : Fin 1))) (Finset.sum_congr rfl fun k _ => congrArg (w (ix2 r k) * ·) ?_)
  have hk32 : k.val / 32 < 32 := by have := k.isLt; omega
  show flat o (rolled x0) hs (ix2 k l) = _
  rw [flat_apply o (rolled x0) hs k l (⟨o + k.val / 32, by omega⟩ : Fin 64) rfl]
  exact rolled_apply x0 (chan k) _ l (σ k) (hσ k)

/-- THE PAYLOAD AT AN ELEMENT. -/
theorem pay_apply (x0 : FVec Ideal S1x32x64x384 .f32) (w : FVec Ideal S1024x1024 .bf16) (bb : FVec Ideal S1024x1 .f32)
    (c : Fin 32) (t : Fin 64) (l : Fin 384) :
    k0_pay1 (F := Ideal) x0 w bb (ix4 (0 : Fin 1) c t l)
      = (∑ k : Fin 1024, w (ix2 (row c t) k) * x0 (ix4 (0 : Fin 1) (chan k) (src t k) l)) + bb (ix2 (row c t) (0 : Fin 1)) := by
  rw [pay_eq]
  have hu : (t.val + 16) % 64 < 64 := Nat.mod_lt _ (by decide)
  refine (shapeCast_abc_1abc_apply _ shapeCasts_S32x64x384_S1x32x64x384 (0 : Fin 1) c t l).trans ?_
  refine (dynamicRotate_ix3_axis1_apply 48#32 _ rotates_S32x64x384_d1 c t l (⟨(t.val + 16) % 64, hu⟩ : Fin 64) ?_).trans ?_
  · have h48 : (48#32 : BitVec 32).toNat = 48 := rfl
    rw [h48]; show (t.val + 16) % 64 = (t.val + 64 - 48 % 64) % 64; omega
  by_cases hlt : (t.val + 16) % 64 < 32
  · refine (concatenate_ix3_axis1_left _ _ concatenates_S32x32x384_S32x32x384_S32x64x384_d1 c _ l
      (⟨(t.val + 16) % 64, hlt⟩ : Fin 32) rfl).trans ?_
    exact window_apply 0 slices_S32x64x384_o0_0_0_S32x32x384 (by decide) x0 w bb c _ l (row c t)
      (by show (t.val + 16) % 64 % 32 * 32 + c.val = (t.val + 16) % 64 * 32 + c.val; omega)
      (src t) (fun k => by show ((t.val + 16) % 64 / 32 * 32 + k.val / 32 + 48) % 64 = (0 + k.val / 32 + 48) % 64; omega)
  · have hge : 32 ≤ (t.val + 16) % 64 := Nat.le_of_not_lt hlt
    refine (concatenate_ix3_axis1_right _ _ concatenates_S32x32x384_S32x32x384_S32x64x384_d1 c _ l
      (⟨(t.val + 16) % 64 - 32, by omega⟩ : Fin 32) (by show (t.val + 16) % 64 - 32 + 32 = (t.val + 16) % 64; omega)).trans ?_
    exact window_apply 32 slices_S32x64x384_o0_32_0_S32x32x384 (by decide) x0 w bb c _ l (row c t)
      (by show (t.val + 16) % 64 % 32 * 32 + c.val = ((t.val + 16) % 64 - 32) * 32 + c.val; omega)
      (src t) (fun k => by show ((t.val + 16) % 64 / 32 * 32 + k.val / 32 + 48) % 64 = (32 + k.val / 32 + 48) % 64; omega)

end Cert.KernelIdeal.BodyAt

end
-- ==== Proof.KernelValue.lean ====
/-
  The kernel's result array.

  Before the region the host lays the input out in the four-axis view `[batch, channel, time, position]`, copies the
  weight and writes the bias as a column. The grid has a point for every batch `t / 36` and every tile `t mod 36` of 384
  positions; at a point the body sees the input's block `[1, 32, 64, 384]` at `(t / 36, 0, 0, t mod 36)`, the whole
  weight and the whole bias column, and what it stores (read at an element in `BodyAt`) is written back to the same
  block of the output. The specification `WindowMix.mix` acts on each position by itself, so the block a point writes
  is the block of `mix` of the whole arrays; the 72 blocks tile the output, so the output array is `mix` of them. After
  the region the host reshapes the four-axis output to the result's shape.
-/
import proofs.«179925_j56332791054554_2_alg».proof.Proof.Gen.KernelIdeal.Frame
import proofs.«179925_j56332791054554_2_alg».proof.Proof.BodyAt
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Whole

open Cert.KernelIdeal Cert.KernelIdeal.Gen Cert.KernelIdeal.BodyAt
open Idealize.ShloMosaic Idealize.ShloMosaic.TcCoe Idealize.SL.Sem Idealize.ShloMosaic.ValueIdx
open Idealize.ShloMosaic.Pipeline (Dat)
open Cert.WindowMix Cert.Lib.KeepdimsColumn

variable (m : (ℓ : Loc nD τ sig) → Buf (Elt Ideal) ℓ) (ρ : Dev nD → PrngReg)

/-! ## The arrays the region finds -/

theorem V_v0 (c : Dev nD) : (V m c main_v0 : S2x32x64x13824.Idx → EReal)
    = shapeCast S2x32x64x13824 (m ((c : Thread nD τ).loc main_arg0)) shapeCasts_S2x32x96x96x96_S2x32x64x13824 := by
  show StableHlo.after hostOps0 (fun b => m (c, b)) (Proc.devRef .tc main_v0) = _
  after_results
  rfl

theorem V_v1 (c : Dev nD) : (V m c main_v1 : S1024x1024.Idx → EReal)
    = (m ((c : Thread nD τ).loc main_arg1) : S1024x1024.Idx → EReal) := by
  show StableHlo.after hostOps0 (fun b => m (c, b)) (Proc.devRef .tc main_v1) = _
  after_results
  rfl

theorem V_v2 (c : Dev nD) : (V m c main_v2 : S1024x1.Idx → EReal)
    = shapeCast S1024x1 (m ((c : Thread nD τ).loc main_arg2)) shapeCasts_S1024_S1024x1 := by
  show StableHlo.after hostOps0 (fun b => m (c, b)) (Proc.devRef .tc main_v2) = _
  after_results
  rfl

/-! ## The grid's points and the windows' blocks -/

/-- Where each window's block sits at point `t`: batch `t / 36`, tile `t mod 36` for the input and the output, the
    one block for the weight and the bias. -/
theorem idx_facts : ∀ t : Fin cfg0.N,
    win0_0.index t (0 : Fin 4) = t.val / 36 ∧ win0_0.index t (1 : Fin 4) = 0 ∧ win0_0.index t (2 : Fin 4) = 0 ∧ win0_0.index t (3 : Fin 4) = t.val % 36
    ∧ win0_3.index t (0 : Fin 4) = t.val / 36 ∧ win0_3.index t (1 : Fin 4) = 0 ∧ win0_3.index t (2 : Fin 4) = 0 ∧ win0_3.index t (3 : Fin 4) = t.val % 36
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

/-- The input's block at point `t`, read at an element, is the four-axis input at batch `t / 36`, position
    `(t mod 36) · 384 + ` the element's. -/
theorem iblk0_at (c : Dev nD) (t : Fin cfg0.N) (y : S1x32x64x384.Idx) (i : S2x32x64x13824.Idx)
    (h0 : (i 0).val = t.val / 36) (h1 : (i 1).val = (y 1).val) (h2 : (i 2).val = (y 2).val)
    (h3 : (i 3).val = t.val % 36 * 384 + (y 3).val) :
    (iblk m c 0 t : Vec Ideal S1x32x64x384 .f32) y = (V m c main_v0 : S2x32x64x13824.Idx → EReal) i := by
  obtain ⟨e0, e1, e2, e3, -⟩ := idx_facts t
  have hy0 : (y 0).val < 1 := (y 0).isLt
  unfold iblk
  rw [View.read_apply]
  show V m c main_v0 _ = V m c main_v0 i
  refine congrArg (V m c main_v0) (funext fun a => Fin.ext ?_)
  match a with
  | ⟨0, _⟩ => show win0_0.index t (0 : Fin 4) * 1 + 1 * (y 0).val = (i 0).val; rw [e0, h0]; omega
  | ⟨1, _⟩ => show win0_0.index t (1 : Fin 4) * 32 + 1 * (y 1).val = (i 1).val; rw [e1, h1]; omega
  | ⟨2, _⟩ => show win0_0.index t (2 : Fin 4) * 64 + 1 * (y 2).val = (i 2).val; rw [e2, h2]; omega
  | ⟨3, _⟩ => show win0_0.index t (3 : Fin 4) * 384 + 1 * (y 3).val = (i 3).val; rw [e3, h3]; omega

/-- The weight's block at every point is the whole weight. -/
theorem iblk1_at (c : Dev nD) (t : Fin cfg0.N) (z : S1024x1024.Idx) :
    (iblk m c 1 t : Vec Ideal S1024x1024 .bf16) z = (V m c main_v1 : S1024x1024.Idx → EReal) z := by
  obtain ⟨-, -, -, -, -, -, -, -, e0, e1, -⟩ := idx_facts t
  unfold iblk
  rw [View.read_apply]
  show V m c main_v1 _ = V m c main_v1 z
  refine congrArg (V m c main_v1) (funext fun a => Fin.ext ?_)
  match a with
  | ⟨0, _⟩ => show win0_1.index t (0 : Fin 2) * 1024 + 1 * (z 0).val = (z 0).val; rw [e0]; omega
  | ⟨1, _⟩ => show win0_1.index t (1 : Fin 2) * 1024 + 1 * (z 1).val = (z 1).val; rw [e1]; omega

/-- The bias column's block at every point is the whole column. -/
theorem iblk2_at (c : Dev nD) (t : Fin cfg0.N) (z : S1024x1.Idx) :
    (iblk m c 2 t : Vec Ideal S1024x1 .f32) z = (V m c main_v2 : S1024x1.Idx → EReal) z := by
  obtain ⟨-, -, -, -, -, -, -, -, -, -, e0, e1⟩ := idx_facts t
  unfold iblk
  rw [View.read_apply]
  show V m c main_v2 _ = V m c main_v2 z
  refine congrArg (V m c main_v2) (funext fun a => Fin.ext ?_)
  match a with
  | ⟨0, _⟩ => show win0_2.index t (0 : Fin 2) * 1024 + 1 * (z 0).val = (z 0).val; rw [e0]; omega
  | ⟨1, _⟩ => show win0_2.index t (1 : Fin 2) * 1 + 1 * (z 1).val = (z 1).val; rw [e1]; omega

/-! ## What a point writes back -/

/-- The specification over the arrays the region finds. -/
def G (A0 : S2x32x64x13824.Idx → EReal) (A1 : S1024x1024.Idx → EReal) (A2 : S1024x1.Idx → EReal) : S2x32x64x13824.Idx → EReal :=
  mix A0 (fun o k => A1 (ix2 o k)) (fun o => A2 (ix2 o (0 : Fin 1)))

/-- A body's payload on blocks that are a rectangle of `A0` (batch `bi`, positions from `ti · 384`), all of `A1` and all
    of `A2`, at a block element `y`, is the specification at the array element `i` under it. -/
theorem point_at (A0 : S2x32x64x13824.Idx → EReal) (A1 : S1024x1024.Idx → EReal) (A2 : S1024x1.Idx → EReal)
    (x0 : FVec Ideal S1x32x64x384 .f32) (x1 : FVec Ideal S1024x1024 .bf16) (x2 : FVec Ideal S1024x1 .f32) (bi ti : ℕ)
    (h0 : ∀ (y' : S1x32x64x384.Idx) (i' : S2x32x64x13824.Idx), (i' 0).val = bi → (i' 1).val = (y' 1).val →
      (i' 2).val = (y' 2).val → (i' 3).val = ti * 384 + (y' 3).val → x0 y' = A0 i')
    (h1 : ∀ z, x1 z = A1 z) (h2 : ∀ z, x2 z = A2 z)
    (y : S1x32x64x384.Idx) (i : S2x32x64x13824.Idx)
    (hi0 : (i 0).val = bi) (hi1 : (i 1).val = (y 1).val) (hi2 : (i 2).val = (y 2).val) (hi3 : (i 3).val = ti * 384 + (y 3).val) :
    k0_pay1 (F := Ideal) x0 x1 x2 y = G A0 A1 A2 i := by
  obtain ⟨u, c, s, l, rfl⟩ : ∃ (u : Fin 1) (c : Fin 32) (s : Fin 64) (l : Fin 384), y = ix4 u c s l :=
    ⟨y 0, y 1, y 2, y 3, eq_ix4 y⟩
  obtain ⟨b, c', s', p, rfl⟩ : ∃ (b : Fin 2) (c' : Fin 32) (s' : Fin 64) (p : Fin 13824), i = ix4 b c' s' p :=
    ⟨i 0, i 1, i 2, i 3, eq_ix4 i⟩
  obtain rfl : u = 0 := Subsingleton.elim _ _
  obtain rfl : c' = c := Fin.ext hi1
  obtain rfl : s' = s := Fin.ext hi2
  unfold G
  rw [pay_apply, mix_apply, h2]
  refine congrArg (· + A2 (ix2 (row c' s') (0 : Fin 1))) (Finset.sum_congr rfl fun k _ => ?_)
  rw [h1, h0 (ix4 (0 : Fin 1) (chan k) (src s' k) l) (ix4 b (chan k) (src s' k) p) hi0 rfl rfl hi3]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- WHAT POINT `t` WRITES BACK is block `t` of the specification of the arrays the region finds. -/
theorem flushed_eq (c : Dev nD) (t : Fin cfg0.N) :
    (dats m 0 c).flushed 3 t
      = ((cfg0.win 3).blk t).view.read (Elt Ideal) (G (V m c main_v0) (V m c main_v1) (V m c main_v2)) := by
  show (cfg0.win 3).cut (grid0.coords t) ((dats m 0 c).after 3 t) = _
  rw [after0_3]
  unfold out0_3
  rw [View.canon_unit_zero hz4]
  simp only [View.ld_unit_zero (S := S1x32x64x384) hz4, View.ld_unit_zero (S := S1024x1024) hz2, View.ld_unit_zero (S := S1024x1) hz2]
  obtain ⟨-, -, -, -, e0, e1, e2, e3, -⟩ := idx_facts t
  funext j
  have hj0 : (j 0).val < 1 := (j 0).isLt
  show k0_pay1 (F := Ideal) (iblk m c 0 t) (iblk m c 1 t) (iblk m c 2 t) j
    = G (V m c main_v0) (V m c main_v1) (V m c main_v2) (((cfg0.win 3).blk t).view.emb j)
  exact point_at (V m c main_v0) (V m c main_v1) (V m c main_v2) (iblk m c 0 t) (iblk m c 1 t) (iblk m c 2 t)
    (t.val / 36) (t.val % 36)
    (fun y' i' a0 a1 a2 a3 => iblk0_at m c t y' i' a0 a1 a2 a3) (iblk1_at m c t) (iblk2_at m c t)
    j (((cfg0.win 3).blk t).view.emb j)
    (by show win0_3.index t (0 : Fin 4) * 1 + 1 * (j 0).val = t.val / 36; rw [e0]; omega)
    (by show win0_3.index t (1 : Fin 4) * 32 + 1 * (j 1).val = (j 1).val; rw [e1]; omega)
    (by show win0_3.index t (2 : Fin 4) * 64 + 1 * (j 2).val = (j 2).val; rw [e2]; omega)
    (by show win0_3.index t (3 : Fin 4) * 384 + 1 * (j 3).val = t.val % 36 * 384 + (j 3).val; rw [e3]; omega)

/-! ## The blocks tile the output -/

/-- An element is in point `t`'s block iff each coordinate is in the block's range. -/
theorem mem_blk (t : Fin cfg0.N) (i : S2x32x64x13824.Idx) :
    i ∈ ((cfg0.win 3).blk t).view.set
      ↔ ∀ a : Fin 4, win0_3.index t a * S1x32x64x384.size a ≤ (i a).val ∧ (i a).val < win0_3.index t a * S1x32x64x384.size a + S1x32x64x384.size a := by
  show i ∈ ((View.whole main_v3).slice (win0_3.rect t)).set ↔ _
  rw [View.set_slice_whole, Rect.mem_set_unit]
  exact Iff.rfl

/-- Every element of the output is in the block of the point of its batch and its tile of positions. -/
theorem cover (i : S2x32x64x13824.Idx) :
    ∃ t : Fin cfg0.N, (cfg0.win 3).flush t = true ∧ i ∈ ((cfg0.win 3).blk t).view.set := by
  have hN : cfg0.N = 72 := N_0
  have hi0 : (i 0).val < 2 := (i 0).isLt
  have hi1 : (i 1).val < 32 := (i 1).isLt
  have hi2 : (i 2).val < 64 := (i 2).isLt
  have hi3 : (i 3).val < 13824 := (i 3).isLt
  let t : Fin cfg0.N := ⟨(i 0).val * 36 + (i 3).val / 384, by rw [hN]; omega⟩
  have htv : t.val = (i 0).val * 36 + (i 3).val / 384 := rfl
  obtain ⟨-, -, -, -, e0, e1, e2, e3, -⟩ := idx_facts t
  refine ⟨t, flush0_3 t, ?_⟩
  rw [mem_blk]
  intro a
  match a with
  | ⟨0, _⟩ =>
    show win0_3.index t (0 : Fin 4) * 1 ≤ (i 0).val ∧ (i 0).val < win0_3.index t (0 : Fin 4) * 1 + 1
    rw [e0, htv]; omega
  | ⟨1, _⟩ =>
    show win0_3.index t (1 : Fin 4) * 32 ≤ (i 1).val ∧ (i 1).val < win0_3.index t (1 : Fin 4) * 32 + 32
    rw [e1]; omega
  | ⟨2, _⟩ =>
    show win0_3.index t (2 : Fin 4) * 64 ≤ (i 2).val ∧ (i 2).val < win0_3.index t (2 : Fin 4) * 64 + 64
    rw [e2]; omega
  | ⟨3, _⟩ =>
    show win0_3.index t (3 : Fin 4) * 384 ≤ (i 3).val ∧ (i 3).val < win0_3.index t (3 : Fin 4) * 384 + 384
    rw [e3, htv]; omega

/-- THE OUTPUT ARRAY after the region is the specification of the arrays the region finds. -/
theorem final (c : Dev nD) : (dats m 0 c).arrAt 3 cfg0.N = G (V m c main_v0) (V m c main_v1) (V m c main_v2) :=
  (dats m 0 c).arrAt_eq_of_cover 3 (G (V m c main_v0) (V m c main_v1) (V m c main_v2)) (fun t _ => flushed_eq m c t) cover

/-! ## In terms of the arguments -/

/-- The arrays the region finds, put in: the specification of the four-axis view of the input, the weight and the bias. -/
theorem G_args (c : Dev nD) : G (V m c main_v0) (V m c main_v1) (V m c main_v2)
    = mix (shapeCast S2x32x64x13824 (m ((c : Thread nD τ).loc main_arg0)) shapeCasts_S2x32x96x96x96_S2x32x64x13824)
        (fun o k => (m ((c : Thread nD τ).loc main_arg1) : S1024x1024.Idx → EReal) (ix2 o k))
        (fun o => (m ((c : Thread nD τ).loc main_arg2) : S1024.Idx → EReal) (ix1 o)) := by
  unfold G
  rw [V_v0, V_v1, V_v2]
  refine congrArg (mix _ _) (funext fun o => ?_)
  exact shapeCast_a_a1_apply _ shapeCasts_S1024_S1024x1 o (0 : Fin 1)

/-! ## The reshape after the region, and the run -/

/-- The result after the host's last reshape. -/
theorem tail_eq (c : Dev nD) :
    Pipeline.afterTail₀ cfgs (dats m) 0 (V0 m) [hostOps1] c main_v4
      = shapeCast S2x32x96x96x96 (G (V m c main_v0) (V m c main_v1) (V m c main_v2)) shapeCasts_S2x32x64x13824_S2x32x96x96x96 := by
  unfold Pipeline.afterTail₀
  show StableHlo.after hostOps1 _ (Proc.devRef .tc main_v4) = _
  after_results
  exact congrArg (fun A => shapeCast S2x32x96x96x96 A shapeCasts_S2x32x64x13824_S2x32x96x96x96)
    ((Pipeline.withArrays_arr spec0 launch0.win.arr_inj c _ _ 3).trans (final m c))

/-- THE KERNEL'S RUN, READ: every weakly fair execution ends with the result at the specification of the arguments,
    reshaped, and the arguments unchanged. -/
theorem run : θ_run defs (onTc (τ := τ) (main (F := Ideal))) ⟨m, fun _ => 0, ρ⟩ fun r => ∀ c : Dev nD,
      r.2.mem ((c : Thread nD τ).loc main_v4)
        = shapeCast S2x32x96x96x96
            (mix (shapeCast S2x32x64x13824 (m ((c : Thread nD τ).loc main_arg0)) shapeCasts_S2x32x96x96x96_S2x32x64x13824)
              (fun o k => (m ((c : Thread nD τ).loc main_arg1) : S1024x1024.Idx → EReal) (ix2 o k))
              (fun o => (m ((c : Thread nD τ).loc main_arg2) : S1024.Idx → EReal) (ix1 o)))
            shapeCasts_S2x32x64x13824_S2x32x96x96x96
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(((h c).2 main_v4 (Pipeline.mem_restRefs_of main_v4 (by decide) (by decide))).trans (tail_eq m c)).trans
        (congrArg (fun A => shapeCast S2x32x96x96x96 A shapeCasts_S2x32x64x13824_S2x32x96x96x96) (G_args m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRun.lean ====
/-
  The reference's run, over named stages.

  The reference is sixteen host operations in a straight line. Two of its values are each read twice (a roll is spelt
  as two slices of one value joined in the other order), so its result written as one term of the arguments would hold
  the input's chain four times. It is read back in three stretches instead, each a function of what the stretch before
  left:
    * the input split to six axes (`split6`), channel and time moved to the back (`toBack`), time rolled forward by 16
      (`rolledIn`);
    * of that: time and channel regrouped as window and feature (`windowsOf`), the product with the weight
      (`productOf`), the bias spread over every row (`biasAll`), their sum (`layerOf`), window and feature regrouped as
      time and channel (`stepsOf`);
    * of that: time rolled back (`rolledOutOf`), channel and time moved to the front again (`toFrontOf`), the six axes
      merged to the result's shape (`resultOf`).
  Every weakly fair execution of the reference terminates with its result buffer at `result` of the arguments — the three
  composed — and the arguments unchanged.
-/
import proofs.«179925_j56332791054554_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's sixteen operations, in order (the two rolls' slices and joins stand where the rolls are called). -/
abbrev ops : List (HloOp τ sig (Elt F)) :=
  [ reshape main_arg0 main_v0 rfl shapeCasts_S2x32x96x96x96_S2x32x64x24x24x24,
    unary main_v0 main_v1 ((transpose S2x24x24x24x64x32 [0, 3, 4, 5, 2, 1] · transposes_S2x32x64x24x24x24_S2x24x24x24x64x32_0_3_4_5_2_1) : (⟨S2x32x64x24x24x24, .f32⟩ : BufTy).Contents (Elt F) → (⟨S2x24x24x24x64x32, .f32⟩ : BufTy).Contents (Elt F)),
    TRef.unary (TRef.of (T := ⟨S2x24x24x24x64x32, .f32⟩) main_v1) (TRef.of (T := ⟨S2x24x24x24x16x32, .f32⟩) main_call0_v0) (extractStridedSlice S2x24x24x24x16x32 ![0, 0, 0, 0, 48, 0] · slices_S2x24x24x24x64x32_S2x24x24x24x16x32_0_0_0_0_48_0),
    TRef.unary (TRef.of (T := ⟨S2x24x24x24x64x32, .f32⟩) main_v1) (TRef.of (T := ⟨S2x24x24x24x48x32, .f32⟩) main_call0_v1) (extractStridedSlice S2x24x24x24x48x32 ![0, 0, 0, 0, 0, 0] · slices_S2x24x24x24x64x32_S2x24x24x24x48x32_0_0_0_0_0_0),
    TRef.binary (TRef.of (T := ⟨S2x24x24x24x16x32, .f32⟩) main_call0_v0) (TRef.of (T := ⟨S2x24x24x24x48x32, .f32⟩) main_call0_v1) (TRef.of (T := ⟨S2x24x24x24x64x32, .f32⟩) main_v2) (fun a b => concatenate S2x24x24x24x64x32 4 [⟨S2x24x24x24x16x32, a⟩, ⟨S2x24x24x24x48x32, b⟩] concatenates_S2x24x24x24x16x32_S2x24x24x24x48x32_S2x24x24x24x64x32_d4),
    reshape main_v2 main_v3 rfl shapeCasts_S2x24x24x24x64x32_S2x24x24x24x2x1024,
    binary main_v3 main_arg1 main_v4 ((fun l r => Host.dotGeneral dot_S2x24x24x24x2x1024_S1024x1024_S2x24x24x24x2x1024_5_1_01234_0_n_n none l r) : (⟨S2x24x24x24x2x1024, .f32⟩ : BufTy).Contents (Elt F) → (⟨S1024x1024, .f32⟩ : BufTy).Contents (Elt F) → (⟨S2x24x24x24x2x1024, .f32⟩ : BufTy).Contents (Elt F)),
    unary main_arg2 main_v5 (broadcastInDim S1x1x1x1x1x1024 ![5] bcast_S1024_S1x1x1x1x1x1024_5 : (⟨S1024, .f32⟩ : BufTy).Contents (Elt F) → (⟨S1x1x1x1x1x1024, .f32⟩ : BufTy).Contents (Elt F)),
    unary main_v5 main_v6 (broadcastInDim S2x24x24x24x2x1024 ![0, 1, 2, 3, 4, 5] bcast_S1x1x1x1x1x1024_S2x24x24x24x2x1024_0_1_2_3_4_5 : (⟨S1x1x1x1x1x1024, .f32⟩ : BufTy).Contents (Elt F) → (⟨S2x24x24x24x2x1024, .f32⟩ : BufTy).Contents (Elt F)),
    binary main_v4 main_v6 main_v7 (addf : (⟨S2x24x24x24x2x1024, .f32⟩ : BufTy).Contents (Elt F) → (⟨S2x24x24x24x2x1024, .f32⟩ : BufTy).Contents (Elt F) → (⟨S2x24x24x24x2x1024, .f32⟩ : BufTy).Contents (Elt F)),
    reshape main_v7 main_v8 rfl shapeCasts_S2x24x24x24x2x1024_S2x24x24x24x64x32,
    TRef.unary (TRef.of (T := ⟨S2x24x24x24x64x32, .f32⟩) main_v8) (TRef.of (T := ⟨S2x24x24x24x48x32, .f32⟩) main_call1_v0) (extractStridedSlice S2x24x24x24x48x32 ![0, 0, 0, 0, 16, 0] · slices_S2x24x24x24x64x32_S2x24x24x24x48x32_0_0_0_0_16_0),
    TRef.unary (TRef.of (T := ⟨S2x24x24x24x64x32, .f32⟩) main_v8) (TRef.of (T := ⟨S2x24x24x24x16x32, .f32⟩) main_call1_v1) (extractStridedSlice S2x24x24x24x16x32 ![0, 0, 0, 0, 0, 0] · slices_S2x24x24x24x64x32_S2x24x24x24x16x32_0_0_0_0_0_0),
    TRef.binary (TRef.of (T := ⟨S2x24x24x24x48x32, .f32⟩) main_call1_v0) (TRef.of (T := ⟨S2x24x24x24x16x32, .f32⟩) main_call1_v1) (TRef.of (T := ⟨S2x24x24x24x64x32, .f32⟩) main_v9) (fun a b => concatenate S2x24x24x24x64x32 4 [⟨S2x24x24x24x48x32, a⟩, ⟨S2x24x24x24x16x32, b⟩] concatenates_S2x24x24x24x48x32_S2x24x24x24x16x32_S2x24x24x24x64x32_d4),
    unary main_v9 main_v10 ((transpose S2x32x64x24x24x24 [0, 5, 4, 1, 2, 3] · transposes_S2x24x24x24x64x32_S2x32x64x24x24x24_0_5_4_1_2_3) : (⟨S2x24x24x24x64x32, .f32⟩ : BufTy).Contents (Elt F) → (⟨S2x32x64x24x24x24, .f32⟩ : BufTy).Contents (Elt F)),
    reshape main_v10 main_v11 rfl shapeCasts_S2x32x64x24x24x24_S2x32x96x96x96 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., unary_bufs_sub .., unary_bufs_sub .., binary_bufs_sub .., reshape_bufs_sub .., binary_bufs_sub .., unary_bufs_sub .., unary_bufs_sub .., binary_bufs_sub .., reshape_bufs_sub .., unary_bufs_sub .., unary_bufs_sub .., binary_bufs_sub .., unary_bufs_sub .., reshape_bufs_sub ..⟩

/-- The first five operations: up to the input rolled forward. -/
abbrev ops1 : List (HloOp τ sig (Elt F)) :=
  [ reshape main_arg0 main_v0 rfl shapeCasts_S2x32x96x96x96_S2x32x64x24x24x24,
    unary main_v0 main_v1 ((transpose S2x24x24x24x64x32 [0, 3, 4, 5, 2, 1] · transposes_S2x32x64x24x24x24_S2x24x24x24x64x32_0_3_4_5_2_1) : (⟨S2x32x64x24x24x24, .f32⟩ : BufTy).Contents (Elt F) → (⟨S2x24x24x24x64x32, .f32⟩ : BufTy).Contents (Elt F)),
    TRef.unary (TRef.of (T := ⟨S2x24x24x24x64x32, .f32⟩) main_v1) (TRef.of (T := ⟨S2x24x24x24x16x32, .f32⟩) main_call0_v0) (extractStridedSlice S2x24x24x24x16x32 ![0, 0, 0, 0, 48, 0] · slices_S2x24x24x24x64x32_S2x24x24x24x16x32_0_0_0_0_48_0),
    TRef.unary (TRef.of (T := ⟨S2x24x24x24x64x32, .f32⟩) main_v1) (TRef.of (T := ⟨S2x24x24x24x48x32, .f32⟩) main_call0_v1) (extractStridedSlice S2x24x24x24x48x32 ![0, 0, 0, 0, 0, 0] · slices_S2x24x24x24x64x32_S2x24x24x24x48x32_0_0_0_0_0_0),
    TRef.binary (TRef.of (T := ⟨S2x24x24x24x16x32, .f32⟩) main_call0_v0) (TRef.of (T := ⟨S2x24x24x24x48x32, .f32⟩) main_call0_v1) (TRef.of (T := ⟨S2x24x24x24x64x32, .f32⟩) main_v2) (fun a b => concatenate S2x24x24x24x64x32 4 [⟨S2x24x24x24x16x32, a⟩, ⟨S2x24x24x24x48x32, b⟩] concatenates_S2x24x24x24x16x32_S2x24x24x24x48x32_S2x24x24x24x64x32_d4) ]
/-- The next six: the layer, up to its output regrouped as time and channel. -/
abbrev ops2 : List (HloOp τ sig (Elt F)) :=
  [ reshape main_v2 main_v3 rfl shapeCasts_S2x24x24x24x64x32_S2x24x24x24x2x1024,
    binary main_v3 main_arg1 main_v4 ((fun l r => Host.dotGeneral dot_S2x24x24x24x2x1024_S1024x1024_S2x24x24x24x2x1024_5_1_01234_0_n_n none l r) : (⟨S2x24x24x24x2x1024, .f32⟩ : BufTy).Contents (Elt F) → (⟨S1024x1024, .f32⟩ : BufTy).Contents (Elt F) → (⟨S2x24x24x24x2x1024, .f32⟩ : BufTy).Contents (Elt F)),
    unary main_arg2 main_v5 (broadcastInDim S1x1x1x1x1x1024 ![5] bcast_S1024_S1x1x1x1x1x1024_5 : (⟨S1024, .f32⟩ : BufTy).Contents (Elt F) → (⟨S1x1x1x1x1x1024, .f32⟩ : BufTy).Contents (Elt F)),
    unary main_v5 main_v6 (broadcastInDim S2x24x24x24x2x1024 ![0, 1, 2, 3, 4, 5] bcast_S1x1x1x1x1x1024_S2x24x24x24x2x1024_0_1_2_3_4_5 : (⟨S1x1x1x1x1x1024, .f32⟩ : BufTy).Contents (Elt F) → (⟨S2x24x24x24x2x1024, .f32⟩ : BufTy).Contents (Elt F)),
    binary main_v4 main_v6 main_v7 (addf : (⟨S2x24x24x24x2x1024, .f32⟩ : BufTy).Contents (Elt F) → (⟨S2x24x24x24x2x1024, .f32⟩ : BufTy).Contents (Elt F) → (⟨S2x24x24x24x2x1024, .f32⟩ : BufTy).Contents (Elt F)),
    reshape main_v7 main_v8 rfl shapeCasts_S2x24x24x24x2x1024_S2x24x24x24x64x32 ]
/-- The last five: the roll back, the transposition and the last reshape. -/
abbrev ops3 : List (HloOp τ sig (Elt F)) :=
  [ TRef.unary (TRef.of (T := ⟨S2x24x24x24x64x32, .f32⟩) main_v8) (TRef.of (T := ⟨S2x24x24x24x48x32, .f32⟩) main_call1_v0) (extractStridedSlice S2x24x24x24x48x32 ![0, 0, 0, 0, 16, 0] · slices_S2x24x24x24x64x32_S2x24x24x24x48x32_0_0_0_0_16_0),
    TRef.unary (TRef.of (T := ⟨S2x24x24x24x64x32, .f32⟩) main_v8) (TRef.of (T := ⟨S2x24x24x24x16x32, .f32⟩) main_call1_v1) (extractStridedSlice S2x24x24x24x16x32 ![0, 0, 0, 0, 0, 0] · slices_S2x24x24x24x64x32_S2x24x24x24x16x32_0_0_0_0_0_0),
    TRef.binary (TRef.of (T := ⟨S2x24x24x24x48x32, .f32⟩) main_call1_v0) (TRef.of (T := ⟨S2x24x24x24x16x32, .f32⟩) main_call1_v1) (TRef.of (T := ⟨S2x24x24x24x64x32, .f32⟩) main_v9) (fun a b => concatenate S2x24x24x24x64x32 4 [⟨S2x24x24x24x48x32, a⟩, ⟨S2x24x24x24x16x32, b⟩] concatenates_S2x24x24x24x48x32_S2x24x24x24x16x32_S2x24x24x24x64x32_d4),
    unary main_v9 main_v10 ((transpose S2x32x64x24x24x24 [0, 5, 4, 1, 2, 3] · transposes_S2x24x24x24x64x32_S2x32x64x24x24x24_0_5_4_1_2_3) : (⟨S2x24x24x24x64x32, .f32⟩ : BufTy).Contents (Elt F) → (⟨S2x32x64x24x24x24, .f32⟩ : BufTy).Contents (Elt F)),
    reshape main_v10 main_v11 rfl shapeCasts_S2x32x64x24x24x24_S2x32x96x96x96 ]

theorem ops_eq : (ops : List (HloOp τ sig (Elt F))) = ops1 ++ (ops2 ++ ops3) := rfl

/-! ## The stages -/

def split6 (x0 : (⟨S2x32x96x96x96, .f32⟩ : BufTy).Contents (Elt F)) : (⟨S2x32x64x24x24x24, .f32⟩ : BufTy).Contents (Elt F) :=
  shapeCast S2x32x64x24x24x24 x0 shapeCasts_S2x32x96x96x96_S2x32x64x24x24x24

def toBack (x0 : (⟨S2x32x96x96x96, .f32⟩ : BufTy).Contents (Elt F)) : (⟨S2x24x24x24x64x32, .f32⟩ : BufTy).Contents (Elt F) :=
  transpose S2x24x24x24x64x32 [0, 3, 4, 5, 2, 1] (split6 (F := F) x0) transposes_S2x32x64x24x24x24_S2x24x24x24x64x32_0_3_4_5_2_1

def rolledIn (x0 : (⟨S2x32x96x96x96, .f32⟩ : BufTy).Contents (Elt F)) : (⟨S2x24x24x24x64x32, .f32⟩ : BufTy).Contents (Elt F) :=
  concatenate S2x24x24x24x64x32 4
    [⟨S2x24x24x24x16x32, extractStridedSlice S2x24x24x24x16x32 ![0, 0, 0, 0, 48, 0] (toBack (F := F) x0) slices_S2x24x24x24x64x32_S2x24x24x24x16x32_0_0_0_0_48_0⟩,
     ⟨S2x24x24x24x48x32, extractStridedSlice S2x24x24x24x48x32 ![0, 0, 0, 0, 0, 0] (toBack (F := F) x0) slices_S2x24x24x24x64x32_S2x24x24x24x48x32_0_0_0_0_0_0⟩]
    concatenates_S2x24x24x24x16x32_S2x24x24x24x48x32_S2x24x24x24x64x32_d4

def windowsOf (y : (⟨S2x24x24x24x64x32, .f32⟩ : BufTy).Contents (Elt F)) : (⟨S2x24x24x24x2x1024, .f32⟩ : BufTy).Contents (Elt F) :=
  shapeCast S2x24x24x24x2x1024 y shapeCasts_S2x24x24x24x64x32_S2x24x24x24x2x1024

def productOf (y : (⟨S2x24x24x24x64x32, .f32⟩ : BufTy).Contents (Elt F)) (x1 : (⟨S1024x1024, .f32⟩ : BufTy).Contents (Elt F)) : (⟨S2x24x24x24x2x1024, .f32⟩ : BufTy).Contents (Elt F) :=
  Host.dotGeneral dot_S2x24x24x24x2x1024_S1024x1024_S2x24x24x24x2x1024_5_1_01234_0_n_n none (windowsOf (F := F) y) x1

def biasAll (x2 : (⟨S1024, .f32⟩ : BufTy).Contents (Elt F)) : (⟨S2x24x24x24x2x1024, .f32⟩ : BufTy).Contents (Elt F) :=
  broadcastInDim S2x24x24x24x2x1024 ![0, 1, 2, 3, 4, 5] bcast_S1x1x1x1x1x1024_S2x24x24x24x2x1024_0_1_2_3_4_5
    (broadcastInDim S1x1x1x1x1x1024 ![5] bcast_S1024_S1x1x1x1x1x1024_5 x2)

def layerOf (y : (⟨S2x24x24x24x64x32, .f32⟩ : BufTy).Contents (Elt F)) (x1 : (⟨S1024x1024, .f32⟩ : BufTy).Contents (Elt F)) (x2 : (⟨S1024, .f32⟩ : BufTy).Contents (Elt F)) : (⟨S2x24x24x24x2x1024, .f32⟩ : BufTy).Contents (Elt F) :=
  addf (productOf (F := F) y x1) (biasAll (F := F) x2)

def stepsOf (y : (⟨S2x24x24x24x64x32, .f32⟩ : BufTy).Contents (Elt F)) (x1 : (⟨S1024x1024, .f32⟩ : BufTy).Contents (Elt F)) (x2 : (⟨S1024, .f32⟩ : BufTy).Contents (Elt F)) : (⟨S2x24x24x24x64x32, .f32⟩ : BufTy).Contents (Elt F) :=
  shapeCast S2x24x24x24x64x32 (layerOf (F := F) y x1 x2) shapeCasts_S2x24x24x24x2x1024_S2x24x24x24x64x32

def rolledOutOf (z : (⟨S2x24x24x24x64x32, .f32⟩ : BufTy).Contents (Elt F)) : (⟨S2x24x24x24x64x32, .f32⟩ : BufTy).Contents (Elt F) :=
  concatenate S2x24x24x24x64x32 4
    [⟨S2x24x24x24x48x32, extractStridedSlice S2x24x24x24x48x32 ![0, 0, 0, 0, 16, 0] z slices_S2x24x24x24x64x32_S2x24x24x24x48x32_0_0_0_0_16_0⟩,
     ⟨S2x24x24x24x16x32, extractStridedSlice S2x24x24x24x16x32 ![0, 0, 0, 0, 0, 0] z slices_S2x24x24x24x64x32_S2x24x24x24x16x32_0_0_0_0_0_0⟩]
    concatenates_S2x24x24x24x48x32_S2x24x24x24x16x32_S2x24x24x24x64x32_d4

def toFrontOf (z : (⟨S2x24x24x24x64x32, .f32⟩ : BufTy).Contents (Elt F)) : (⟨S2x32x64x24x24x24, .f32⟩ : BufTy).Contents (Elt F) :=
  transpose S2x32x64x24x24x24 [0, 5, 4, 1, 2, 3] (rolledOutOf (F := F) z) transposes_S2x24x24x24x64x32_S2x32x64x24x24x24_0_5_4_1_2_3

def resultOf (z : (⟨S2x24x24x24x64x32, .f32⟩ : BufTy).Contents (Elt F)) : (⟨S2x32x96x96x96, .f32⟩ : BufTy).Contents (Elt F) :=
  shapeCast S2x32x96x96x96 (toFrontOf (F := F) z) shapeCasts_S2x32x64x24x24x24_S2x32x96x96x96

/-- The reference's result as a function of its arguments. -/
def result (x0 : (⟨S2x32x96x96x96, .f32⟩ : BufTy).Contents (Elt F)) (x1 : (⟨S1024x1024, .f32⟩ : BufTy).Contents (Elt F)) (x2 : (⟨S1024, .f32⟩ : BufTy).Contents (Elt F)) : (⟨S2x32x96x96x96, .f32⟩ : BufTy).Contents (Elt F) :=
  resultOf (F := F) (stepsOf (F := F) (rolledIn (F := F) x0) x1 x2)

/-! ## Each stretch read back, from any contents -/

theorem read1 (V : Valuation τ sig (Elt F)) :
    after ops1 V (Proc.devRef .tc main_v2) = rolledIn (F := F) (V (Proc.devRef .tc main_arg0)) := by
  after_results_simp <;> rfl
theorem keep1_arg1 (V : Valuation τ sig (Elt F)) :
    after ops1 V (Proc.devRef .tc main_arg1) = V (Proc.devRef .tc main_arg1) := by
  after_results_simp <;> rfl
theorem keep1_arg2 (V : Valuation τ sig (Elt F)) :
    after ops1 V (Proc.devRef .tc main_arg2) = V (Proc.devRef .tc main_arg2) := by
  after_results_simp <;> rfl
theorem read2 (V : Valuation τ sig (Elt F)) :
    after ops2 V (Proc.devRef .tc main_v8)
      = stepsOf (F := F) (V (Proc.devRef .tc main_v2)) (V (Proc.devRef .tc main_arg1)) (V (Proc.devRef .tc main_arg2)) := by
  after_results_simp <;> rfl
theorem read3 (V : Valuation τ sig (Elt F)) :
    after ops3 V (Proc.devRef .tc main_v11) = resultOf (F := F) (V (Proc.devRef .tc main_v8)) := by
  after_results_simp <;> rfl

/-- The whole line read back at the result buffer. -/
theorem read_result (V : Valuation τ sig (Elt F)) :
    after ops V (Proc.devRef .tc main_v11)
      = result (F := F) (V (Proc.devRef .tc main_arg0)) (V (Proc.devRef .tc main_arg1)) (V (Proc.devRef .tc main_arg2)) := by
  show after (ops1 ++ (ops2 ++ ops3)) V (Proc.devRef .tc main_v11) = _
  rw [StableHlo.after_append, StableHlo.after_append, read3, read2, read1, keep1_arg1, keep1_arg2]
  rfl

/-! ## The run -/

set_option maxHeartbeats 1600000 in
/-- On every device, from any memory with zero counters: every weakly fair execution of the reference terminates with
    its result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans ((read_result _).trans rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefAt.lean ====
/-
  The reference read at one element.

  Each stage of the reference's run (`Proof/RefRun.lean`) is read at an index given by coordinates: the two
  transpositions and the two broadcasts of the bias by their coordinates, the layer's contraction as a sum over its 1024
  input features, the four reshapes by row-major arithmetic, and each of the two rolls — two slices of one value joined
  in the other order — as a shift of the time coordinate around the 64 steps. Put together, before its last reshape the
  reference holds, at `(b, c, t, u, v, w)`, the specification `WindowMix.mix` of the four-axis view of the input at
  `(b, c, t, (u · 24 + v) · 24 + w)`; so its result is that specification reshaped to the result's shape.
-/
import proofs.«179925_j56332791054554_2_alg».proof.Proof.RefRun
import proofs.«179925_j56332791054554_2_alg».proof.Proof.WindowMix
import proofs.«179925_j56332791054554_2_alg».proof.Proof.LibRollReshape
import Idealize.ShloMosaic.PureOps.Ideal.Laws

noncomputable section

open scoped BigOperators

namespace Cert.ReferenceIdeal.RefAt

open Cert.ReferenceIdeal Cert.ReferenceIdeal.Gen Cert.ReferenceIdeal.RefRun
open Idealize.ShloMosaic Idealize.ShloMosaic.ValueIdx Cert.WindowMix Cert.Lib.RollReshape

/-- The input has as many elements as its four-axis view … -/
theorem h54 : S2x32x96x96x96.ShapeCasts Arr4 := by decide
/-- … which has as many as the six-axis view … -/
theorem h46 : Arr4.ShapeCasts S2x32x64x24x24x24 := by decide
/-- … and as the result. -/
theorem h45 : Arr4.ShapeCasts S2x32x96x96x96 := by decide

variable (x0 : (⟨S2x32x96x96x96, .f32⟩ : BufTy).Contents (Elt Ideal)) (x1 : (⟨S1024x1024, .f32⟩ : BufTy).Contents (Elt Ideal)) (x2 : (⟨S1024, .f32⟩ : BufTy).Contents (Elt Ideal))

/-- The input in the four-axis view `[batch, channel, time, position]`. -/
def view4 : Arr4.Idx → EReal := shapeCast Arr4 x0 h54

/-- The position that `(u, v, w)` of the split position axis is. -/
def pos (u v w : Fin 24) : Fin 13824 := ⟨(u.val * 24 + v.val) * 24 + w.val, by have := u.isLt; have := v.isLt; have := w.isLt; omega⟩

/-! ## The stages before the layer -/

theorem split6_at (b : Fin 2) (c : Fin 32) (t : Fin 64) (u v w : Fin 24) :
    split6 (F := Ideal) x0 (ix6 b c t u v w) = view4 x0 (ix4 b c t (pos u v w)) := by
  unfold split6 view4
  rw [← shapeCast_shapeCast_through x0 h54 h46 shapeCasts_S2x32x96x96x96_S2x32x64x24x24x24]
  exact shapeCast_abcp_abcdef_apply _ h46 (by decide) b c t u v w (pos u v w) rfl

theorem toBack_at (b : Fin 2) (c : Fin 32) (t : Fin 64) (u v w : Fin 24) :
    toBack (F := Ideal) x0 (ix6 b u v w t c) = split6 (F := Ideal) x0 (ix6 b c t u v w) := by
  unfold toBack
  exact transpose_apply [0, 3, 4, 5, 2, 1] _ transposes_S2x32x64x24x24x24_S2x24x24x24x64x32_0_3_4_5_2_1
    (ix6 b u v w t c) (ix6 b c t u v w) (fun d => match d with
      | ⟨0, _⟩ => rfl | ⟨1, _⟩ => rfl | ⟨2, _⟩ => rfl | ⟨3, _⟩ => rfl | ⟨4, _⟩ => rfl | ⟨5, _⟩ => rfl)

/-- The first roll: time `t` reads time `(t + 48) mod 64`. -/
theorem rolledIn_at (b : Fin 2) (c : Fin 32) (t : Fin 64) (u v w : Fin 24) (t' : Fin 64) (ht : t'.val = (t.val + 48) % 64) :
    rolledIn (F := Ideal) x0 (ix6 b u v w t c) = toBack (F := Ideal) x0 (ix6 b u v w t' c) := by
  unfold rolledIn
  exact roll6_axis4_apply (toBack (F := Ideal) x0) _ _ _ (by decide) b u v w t c t' ht

/-- Window `g`, feature `k` is time `g · 32 + k / 32`, channel `k mod 32`. -/
theorem windows_at (y : (⟨S2x24x24x24x64x32, .f32⟩ : BufTy).Contents (Elt Ideal)) (b : Fin 2) (u v w : Fin 24) (g : Fin 2) (k : Fin 1024) (s : Fin 64)
    (hs : s.val = g.val * 32 + k.val / 32) :
    windowsOf (F := Ideal) y (ix6 b u v w g k) = y (ix6 b u v w s (chan k)) := by
  unfold windowsOf
  refine shapeCast6_last2_apply _ shapeCasts_S2x24x24x24x64x32_S2x24x24x24x2x1024 (by decide) b u v w g k s (chan k) ?_
  show s.val * 32 + k.val % 32 = g.val * 1024 + k.val
  rw [hs]; omega

/-- The layer's input at window `g`, feature `k`, in the four-axis view. -/
theorem windows_view (b : Fin 2) (u v w : Fin 24) (g : Fin 2) (k : Fin 1024) (s' : Fin 64)
    (hs' : s'.val = (g.val * 32 + k.val / 32 + 48) % 64) :
    windowsOf (F := Ideal) (rolledIn (F := Ideal) x0) (ix6 b u v w g k) = view4 x0 (ix4 b (chan k) s' (pos u v w)) := by
  have hk32 : k.val / 32 < 32 := by have := k.isLt; omega
  have hg : g.val < 2 := g.isLt
  rw [windows_at (rolledIn (F := Ideal) x0) b u v w g k (⟨g.val * 32 + k.val / 32, by omega⟩ : Fin 64) rfl,
    rolledIn_at x0 b (chan k) _ u v w s' hs', toBack_at, split6_at]

/-! ## The layer -/

/-- The weight and the bias read by coordinates. -/
def weight : Fin 1024 → Fin 1024 → EReal := fun o k => x1 (ix2 o k)
def offset : Fin 1024 → EReal := fun o => x2 (ix1 o)

theorem dot_lhs0 (i : S2x24x24x24x2x1024.Idx) (q : dot_S2x24x24x24x2x1024_S1024x1024_S2x24x24x24x2x1024_5_1_01234_0_n_n.contr.Idx) :
    (dot_S2x24x24x24x2x1024_S1024x1024_S2x24x24x24x2x1024_5_1_01234_0_n_n.lhsIdx i q 0).val = (i 0).val := by
  unfold DotDims.lhsIdx
  rw [dif_neg (show ¬(0 : Fin S2x24x24x24x2x1024.rank) ∈ dot_S2x24x24x24x2x1024_S1024x1024_S2x24x24x24x2x1024_5_1_01234_0_n_n.lhsBatch by decide),
    dif_pos (show (0 : Fin S2x24x24x24x2x1024.rank) ∈ dot_S2x24x24x24x2x1024_S1024x1024_S2x24x24x24x2x1024_5_1_01234_0_n_n.lhsNonContracting by decide)]
  rfl

theorem dot_lhs1 (i : S2x24x24x24x2x1024.Idx) (q : dot_S2x24x24x24x2x1024_S1024x1024_S2x24x24x24x2x1024_5_1_01234_0_n_n.contr.Idx) :
    (dot_S2x24x24x24x2x1024_S1024x1024_S2x24x24x24x2x1024_5_1_01234_0_n_n.lhsIdx i q 1).val = (i 1).val := by
  unfold DotDims.lhsIdx
  rw [dif_neg (show ¬(1 : Fin S2x24x24x24x2x1024.rank) ∈ dot_S2x24x24x24x2x1024_S1024x1024_S2x24x24x24x2x1024_5_1_01234_0_n_n.lhsBatch by decide),
    dif_pos (show (1 : Fin S2x24x24x24x2x1024.rank) ∈ dot_S2x24x24x24x2x1024_S1024x1024_S2x24x24x24x2x1024_5_1_01234_0_n_n.lhsNonContracting by decide)]
  rfl

theorem dot_lhs2 (i : S2x24x24x24x2x1024.Idx) (q : dot_S2x24x24x24x2x1024_S1024x1024_S2x24x24x24x2x1024_5_1_01234_0_n_n.contr.Idx) :
    (dot_S2x24x24x24x2x1024_S1024x1024_S2x24x24x24x2x1024_5_1_01234_0_n_n.lhsIdx i q 2).val = (i 2).val := by
  unfold DotDims.lhsIdx
  rw [dif_neg (show ¬(2 : Fin S2x24x24x24x2x1024.rank) ∈ dot_S2x24x24x24x2x1024_S1024x1024_S2x24x24x24x2x1024_5_1_01234_0_n_n.lhsBatch by decide),
    dif_pos (show (2 : Fin S2x24x24x24x2x1024.rank) ∈ dot_S2x24x24x24x2x1024_S1024x1024_S2x24x24x24x2x1024_5_1_01234_0_n_n.lhsNonContracting by decide)]
  rfl

theorem dot_lhs3 (i : S2x24x24x24x2x1024.Idx) (q : dot_S2x24x24x24x2x1024_S1024x1024_S2x24x24x24x2x1024_5_1_01234_0_n_n.contr.Idx) :
    (dot_S2x24x24x24x2x1024_S1024x1024_S2x24x24x24x2x1024_5_1_01234_0_n_n.lhsIdx i q 3).val = (i 3).val := by
  unfold DotDims.lhsIdx
  rw [dif_neg (show ¬(3 : Fin S2x24x24x24x2x1024.rank) ∈ dot_S2x24x24x24x2x1024_S1024x1024_S2x24x24x24x2x1024_5_1_01234_0_n_n.lhsBatch by decide),
    dif_pos (show (3 : Fin S2x24x24x24x2x1024.rank) ∈ dot_S2x24x24x24x2x1024_S1024x1024_S2x24x24x24x2x1024_5_1_01234_0_n_n.lhsNonContracting by decide)]
  rfl

theorem dot_lhs4 (i : S2x24x24x24x2x1024.Idx) (q : dot_S2x24x24x24x2x1024_S1024x1024_S2x24x24x24x2x1024_5_1_01234_0_n_n.contr.Idx) :
    (dot_S2x24x24x24x2x1024_S1024x1024_S2x24x24x24x2x1024_5_1_01234_0_n_n.lhsIdx i q 4).val = (i 4).val := by
  unfold DotDims.lhsIdx
  rw [dif_neg (show ¬(4 : Fin S2x24x24x24x2x1024.rank) ∈ dot_S2x24x24x24x2x1024_S1024x1024_S2x24x24x24x2x1024_5_1_01234_0_n_n.lhsBatch by decide),
    dif_pos (show (4 : Fin S2x24x24x24x2x1024.rank) ∈ dot_S2x24x24x24x2x1024_S1024x1024_S2x24x24x24x2x1024_5_1_01234_0_n_n.lhsNonContracting by decide)]
  rfl

theorem dot_rhs0 (i : S2x24x24x24x2x1024.Idx) (q : dot_S2x24x24x24x2x1024_S1024x1024_S2x24x24x24x2x1024_5_1_01234_0_n_n.contr.Idx) :
    (dot_S2x24x24x24x2x1024_S1024x1024_S2x24x24x24x2x1024_5_1_01234_0_n_n.rhsIdx i q 0).val = (i 5).val := by
  unfold DotDims.rhsIdx
  rw [dif_neg (show ¬(0 : Fin S1024x1024.rank) ∈ dot_S2x24x24x24x2x1024_S1024x1024_S2x24x24x24x2x1024_5_1_01234_0_n_n.rhsBatch by decide), dif_pos (show (0 : Fin S1024x1024.rank) ∈ dot_S2x24x24x24x2x1024_S1024x1024_S2x24x24x24x2x1024_5_1_01234_0_n_n.rhsNonContracting by decide)]
  rfl

/-- The product with the weight at window `g`, output feature `o`: the sum over the 1024 input features. -/
theorem product_at (y : (⟨S2x24x24x24x64x32, .f32⟩ : BufTy).Contents (Elt Ideal)) (b : Fin 2) (u v w : Fin 24) (g : Fin 2) (o : Fin 1024) :
    productOf (F := Ideal) y x1 (ix6 b u v w g o)
      = ∑ k : Fin 1024, windowsOf (F := Ideal) y (ix6 b u v w g k) * x1 (ix2 o k) := by
  unfold productOf
  generalize windowsOf (F := Ideal) y = y
  simp only [Host.dotGeneral]
  rw [Ideal.dotGeneral_apply, ← Equiv.sum_comp (contrEquiv1 dot_S2x24x24x24x2x1024_S1024x1024_S2x24x24x24x2x1024_5_1_01234_0_n_n 1024 rfl rfl).symm]
  refine Finset.sum_congr rfl fun k _ => ?_
  have hk := contrEquiv1_symm_val dot_S2x24x24x24x2x1024_S1024x1024_S2x24x24x24x2x1024_5_1_01234_0_n_n 1024 rfl rfl k
  have el : dot_S2x24x24x24x2x1024_S1024x1024_S2x24x24x24x2x1024_5_1_01234_0_n_n.lhsIdx (ix6 b u v w g o) ((contrEquiv1 dot_S2x24x24x24x2x1024_S1024x1024_S2x24x24x24x2x1024_5_1_01234_0_n_n 1024 rfl rfl).symm k) = ix6 b u v w g k :=
    funext fun a => Fin.ext (by
      match a with
      | ⟨0, _⟩ => exact dot_lhs0 _ _
      | ⟨1, _⟩ => exact dot_lhs1 _ _
      | ⟨2, _⟩ => exact dot_lhs2 _ _
      | ⟨3, _⟩ => exact dot_lhs3 _ _
      | ⟨4, _⟩ => exact dot_lhs4 _ _
      | ⟨5, _⟩ => exact (dot_S2x24x24x24x2x1024_S1024x1024_S2x24x24x24x2x1024_5_1_01234_0_n_n.lhsIdx_val_of_single rfl _ _).trans hk)
  have er : dot_S2x24x24x24x2x1024_S1024x1024_S2x24x24x24x2x1024_5_1_01234_0_n_n.rhsIdx (ix6 b u v w g o) ((contrEquiv1 dot_S2x24x24x24x2x1024_S1024x1024_S2x24x24x24x2x1024_5_1_01234_0_n_n 1024 rfl rfl).symm k) = ix2 o k :=
    funext fun a => Fin.ext (by
      match a with
      | ⟨0, _⟩ => exact dot_rhs0 _ _
      | ⟨1, _⟩ => exact (dot_S2x24x24x24x2x1024_S1024x1024_S2x24x24x24x2x1024_5_1_01234_0_n_n.rhsIdx_val_of_single rfl _ _).trans hk)
  rw [el, er]

/-- The bias spread over every row, at output feature `o`. -/
theorem biasAll_at (b : Fin 2) (u v w : Fin 24) (g : Fin 2) (o : Fin 1024) :
    biasAll (F := Ideal) x2 (ix6 b u v w g o) = x2 (ix1 o) := by
  unfold biasAll
  refine (broadcastInDim_apply _ bcast_S1x1x1x1x1x1024_S2x24x24x24x2x1024_0_1_2_3_4_5 _ (ix6 b u v w g o)
    (ix6 (0 : Fin 1) (0 : Fin 1) (0 : Fin 1) (0 : Fin 1) (0 : Fin 1) o) (fun a => match a with
      | ⟨0, _⟩ => by show 0 = if (1 : Nat) = 1 then 0 else b.val; rw [if_pos rfl]
      | ⟨1, _⟩ => by show 0 = if (1 : Nat) = 1 then 0 else u.val; rw [if_pos rfl]
      | ⟨2, _⟩ => by show 0 = if (1 : Nat) = 1 then 0 else v.val; rw [if_pos rfl]
      | ⟨3, _⟩ => by show 0 = if (1 : Nat) = 1 then 0 else w.val; rw [if_pos rfl]
      | ⟨4, _⟩ => by show 0 = if (1 : Nat) = 1 then 0 else g.val; rw [if_pos rfl]
      | ⟨5, _⟩ => by show o.val = if (1024 : Nat) = 1 then 0 else o.val; rw [if_neg (by decide)])).trans ?_
  exact broadcastInDim_apply _ bcast_S1024_S1x1x1x1x1x1024_5 x2 _ (ix1 o) (fun a => match a with
    | ⟨0, _⟩ => by show o.val = if (1024 : Nat) = 1 then 0 else o.val; rw [if_neg (by decide)])

/-- The dense layer at window `g`, output feature `o`. -/
theorem layer_at (b : Fin 2) (u v w : Fin 24) (g : Fin 2) (o : Fin 1024) (σ : Fin 1024 → Fin 64)
    (hσ : ∀ k : Fin 1024, (σ k).val = (g.val * 32 + k.val / 32 + 48) % 64) :
    layerOf (F := Ideal) (rolledIn (F := Ideal) x0) x1 x2 (ix6 b u v w g o)
      = (∑ k : Fin 1024, weight x1 o k * view4 x0 (ix4 b (chan k) (σ k) (pos u v w))) + offset x2 o := by
  unfold layerOf
  refine (addf_apply (productOf (F := Ideal) (rolledIn (F := Ideal) x0) x1) (biasAll (F := Ideal) x2) (ix6 b u v w g o)).trans ?_
  rw [product_at, biasAll_at]
  refine congrArg (fun s : EReal => s + offset x2 o) (Finset.sum_congr rfl fun k _ => ?_)
  rw [windows_view x0 b u v w g k (σ k) (hσ k)]
  exact mul_comm (view4 x0 (ix4 b (chan k) (σ k) (pos u v w))) (weight x1 o k)

/-! ## The stages after the layer -/

/-- Time `t`, channel `c` is window `t / 32`, output feature `(t mod 32) · 32 + c`. -/
theorem steps_at (y : (⟨S2x24x24x24x64x32, .f32⟩ : BufTy).Contents (Elt Ideal)) (b : Fin 2) (u v w : Fin 24) (t : Fin 64) (c : Fin 32) (g : Fin 2) (o : Fin 1024)
    (hg : g.val = t.val / 32) (ho : o.val = t.val % 32 * 32 + c.val) :
    stepsOf (F := Ideal) y x1 x2 (ix6 b u v w t c) = layerOf (F := Ideal) y x1 x2 (ix6 b u v w g o) := by
  unfold stepsOf
  refine shapeCast6_last2_apply _ shapeCasts_S2x24x24x24x2x1024_S2x24x24x24x64x32 (by decide) b u v w t c g o ?_
  show g.val * 1024 + o.val = t.val * 32 + c.val
  rw [hg, ho]; omega

/-- The second roll: time `t` reads time `(t + 16) mod 64`. -/
theorem rolledOut_at (z : (⟨S2x24x24x24x64x32, .f32⟩ : BufTy).Contents (Elt Ideal)) (b : Fin 2) (u v w : Fin 24) (t : Fin 64) (c : Fin 32) (t' : Fin 64)
    (ht : t'.val = (t.val + 16) % 64) :
    rolledOutOf (F := Ideal) z (ix6 b u v w t c) = z (ix6 b u v w t' c) := by
  unfold rolledOutOf
  exact roll6_axis4_apply z _ _ _ (by decide) b u v w t c t' ht

theorem toFront_at (z : (⟨S2x24x24x24x64x32, .f32⟩ : BufTy).Contents (Elt Ideal)) (b : Fin 2) (c : Fin 32) (t : Fin 64) (u v w : Fin 24) :
    toFrontOf (F := Ideal) z (ix6 b c t u v w) = rolledOutOf (F := Ideal) z (ix6 b u v w t c) := by
  unfold toFrontOf
  exact transpose_apply [0, 5, 4, 1, 2, 3] _ transposes_S2x24x24x24x64x32_S2x32x64x24x24x24_0_5_4_1_2_3
    (ix6 b c t u v w) (ix6 b u v w t c) (fun d => match d with
      | ⟨0, _⟩ => rfl | ⟨1, _⟩ => rfl | ⟨2, _⟩ => rfl | ⟨3, _⟩ => rfl | ⟨4, _⟩ => rfl | ⟨5, _⟩ => rfl)

/-! ## The reference is the specification -/

/-- Before the last reshape the reference holds the specification at `(b, c, t, pos u v w)`. -/
theorem toFront_eq (b : Fin 2) (c : Fin 32) (t : Fin 64) (u v w : Fin 24) :
    toFrontOf (F := Ideal) (stepsOf (F := Ideal) (rolledIn (F := Ideal) x0) x1 x2) (ix6 b c t u v w)
      = mix (view4 x0) (weight x1) (offset x2) (ix4 b c t (pos u v w)) := by
  have hu : (t.val + 16) % 64 < 64 := Nat.mod_lt _ (by decide)
  have hg : (t.val + 16) % 64 / 32 < 2 := by omega
  rw [toFront_at,
    rolledOut_at (stepsOf (F := Ideal) (rolledIn (F := Ideal) x0) x1 x2) b u v w t c (⟨(t.val + 16) % 64, hu⟩ : Fin 64) rfl,
    steps_at x1 x2 (rolledIn (F := Ideal) x0) b u v w (⟨(t.val + 16) % 64, hu⟩ : Fin 64) c
      (⟨(t.val + 16) % 64 / 32, hg⟩ : Fin 2) (row c t) rfl rfl,
    layer_at x0 x1 x2 b u v w (⟨(t.val + 16) % 64 / 32, hg⟩ : Fin 2) (row c t) (src t) (fun k => rfl), mix_apply]

/-- So the array before the last reshape is the specification reshaped to six axes … -/
theorem toFront_mix : toFrontOf (F := Ideal) (stepsOf (F := Ideal) (rolledIn (F := Ideal) x0) x1 x2) = shapeCast S2x32x64x24x24x24 (mix (view4 x0) (weight x1) (offset x2)) h46 := by
  funext i
  obtain ⟨b, c, t, u, v, w, rfl⟩ : ∃ (b : Fin 2) (c : Fin 32) (t : Fin 64) (u v w : Fin 24), i = ix6 b c t u v w :=
    ⟨i 0, i 1, i 2, i 3, i 4, i 5, eq_ix6 i⟩
  rw [toFront_eq]
  exact (shapeCast_abcp_abcdef_apply _ h46 (by decide) b c t u v w (pos u v w) rfl).symm

/-- … and THE REFERENCE'S RESULT is the specification reshaped to the result's shape. -/
theorem result_eq : result (F := Ideal) x0 x1 x2 = shapeCast S2x32x96x96x96 (mix (view4 x0) (weight x1) (offset x2)) h45 := by
  unfold result resultOf
  rw [toFront_mix]
  exact shapeCast_shapeCast_through _ h46 shapeCasts_S2x32x64x24x24x24_S2x32x96x96x96 h45

end Cert.ReferenceIdeal.RefAt

end
-- ==== Proof.lean ====
/-
  A windowed linear layer along the time axis of a `[2, 32, 96, 96, 96]` array, fused in one kernel, against its
  jnp reference: equal results over the extended reals.

  Both programs view the input as `x[b, c, t, p]` (batch, channel, 64 time steps, 13824 positions), roll time forward
  by half a window of 32 steps, flatten each of the two windows (step major, channel minor) into 1024 features, apply
  `W · _ + bias`, unflatten and roll back. The kernel does this per block of 384 positions with the time axis kept
  second and the weight on the left of the product; the reference moves time and channel to the back and multiplies
  with the weight on the right. At one element both are

    out[b, c, t, p] = (∑ k < 1024, W[row c t, k] · x[b, k mod 32, src t k, p]) + bias[row c t]

  (`Proof/WindowMix.lean`), so they agree by commutativity of the product and a renaming of indices; no finiteness of
  the inputs is used. The kernel's side is `Proof/BodyAt.lean` (what one grid point stores, at an element) and
  `Proof/KernelValue.lean` (the blocks tile the output; the reshapes around the region); the reference's side is
  `Proof/RefAt.lean`. The narrowing of the weight and of the windows to bf16 is the identity on extended reals, and the
  idealization rewrote nothing, so `preserves` is trivial. The three frames are the generated ones.
-/
import proofs.«179925_j56332791054554_2_alg».proof.Defs
import proofs.«179925_j56332791054554_2_alg».proof.Proof.Gen.Kernel
import proofs.«179925_j56332791054554_2_alg».proof.Proof.Gen.Kernel.Frame
import proofs.«179925_j56332791054554_2_alg».proof.Proof.Gen.KernelIdeal
import proofs.«179925_j56332791054554_2_alg».proof.Proof.Gen.KernelIdeal.Frame
import proofs.«179925_j56332791054554_2_alg».proof.Proof.Gen.ReferenceIdeal
import proofs.«179925_j56332791054554_2_alg».proof.Proof.Gen.Pre_finite_inputs
import proofs.«179925_j56332791054554_2_alg».proof.Proof.KernelValue
import proofs.«179925_j56332791054554_2_alg».proof.Proof.RefAt
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the specification of the (agreeing) arguments, reshaped to the result's shape. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefAt.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
